-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S4096x1 .f32 .bf16
  ∧ IdealRules.truncf_extf.Statement Cert.KernelIdeal.S1x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S1x1 : Shape := ⟨2, ![1, 1]⟩
abbrev S1x4096x3 : Shape := ⟨3, ![1, 4096, 3]⟩
abbrev S4096x3 : Shape := ⟨2, ![4096, 3]⟩
abbrev S3x4096 : Shape := ⟨2, ![3, 4096]⟩
abbrev S4096 : Shape := ⟨1, ![4096]⟩
abbrev S4096x1 : Shape := ⟨2, ![4096, 1]⟩
abbrev S4096x8 : Shape := ⟨2, ![4096, 8]⟩
abbrev S1x4096 : Shape := ⟨2, ![1, 4096]⟩
abbrev S8x4096 : Shape := ⟨2, ![8, 4096]⟩
abbrev S128x8 : Shape := ⟨2, ![128, 8]⟩
abbrev S128x4096 : Shape := ⟨2, ![128, 4096]⟩
abbrev S128 : Shape := ⟨1, ![128]⟩
abbrev S128x1 : Shape := ⟨2, ![128, 1]⟩
abbrev S1 : Shape := ⟨1, ![1]⟩
abbrev S16x8x4096 : Shape := ⟨3, ![16, 8, 4096]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S1x1, .f32⟩
  | .hbm, ⟨3, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x4096x3, .f32⟩
  | .local _ .vmem, ⟨3, _⟩ => ⟨S1x4096x3, .f32⟩
  | .local _ .vmem, ⟨4, _⟩ => ⟨S1x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  transposes_S4096x3_p1_0_S3x4096 : S4096x3.Transposes [1, 0] S3x4096
  inb_S1x1_S1x1_0_0 : ∀ a, (![0, 0] : Fin 2 → Nat) a + S1x1.size a ≤ S1x1.size a
  h_S1x1 : 0 < S1x1.numel
  reduces_S4096x3_S4096 : S4096x3.Reduces [1] S4096
  shapeCasts_S4096_S4096x1 : S4096.ShapeCasts S4096x1
  bitsLt_bf16_f32 : FTy.bits .bf16 < FTy.bits .f32
  concatenates_S4096x3_S4096x1_S4096x1_S4096x1_S4096x1_S4096x1_S4096x8_d1 : Shape.Concatenates [S4096x3, S4096x1, S4096x1, S4096x1, S4096x1, S4096x1] S4096x8 1
  reduces_S3x4096_S4096 : S3x4096.Reduces [0] S4096
  shapeCasts_S4096_S1x4096 : S4096.ShapeCasts S1x4096
  concatenates_S3x4096_S1x4096_S1x4096_S1x4096_S1x4096_S1x4096_S8x4096_d0 : Shape.Concatenates [S3x4096, S1x4096, S1x4096, S1x4096, S1x4096, S1x4096] S8x4096 0
  slices_S4096x8_o0_0_S128x8 : S4096x8.Slices ![0, 0] S128x8
  reduces_S128x4096_S128 : S128x4096.Reduces [1] S128
  shapeCasts_S128_S128x1 : S128.ShapeCasts S128x1
  reduces_S128x1_S1 : S128x1.Reduces [0] S1
  shapeCasts_S1_S1x1 : S1.ShapeCasts S1x1
  shapeCasts_S128x4096_S16x8x4096 : S128x4096.ShapeCasts S16x8x4096
  reduces_S16x8x4096_S8x4096 : S16x8x4096.Reduces [0] S8x4096
  slices_S4096x8_o128_0_S128x8 : S4096x8.Slices ![128, 0] S128x8
  slices_S4096x8_o256_0_S128x8 : S4096x8.Slices ![256, 0] S128x8
  slices_S4096x8_o384_0_S128x8 : S4096x8.Slices ![384, 0] S128x8
  slices_S4096x8_o512_0_S128x8 : S4096x8.Slices ![512, 0] S128x8
  slices_S4096x8_o640_0_S128x8 : S4096x8.Slices ![640, 0] S128x8
  slices_S4096x8_o768_0_S128x8 : S4096x8.Slices ![768, 0] S128x8
  slices_S4096x8_o896_0_S128x8 : S4096x8.Slices ![896, 0] S128x8
  slices_S4096x8_o1024_0_S128x8 : S4096x8.Slices ![1024, 0] S128x8
  slices_S4096x8_o1152_0_S128x8 : S4096x8.Slices ![1152, 0] S128x8
  slices_S4096x8_o1280_0_S128x8 : S4096x8.Slices ![1280, 0] S128x8
  slices_S4096x8_o1408_0_S128x8 : S4096x8.Slices ![1408, 0] S128x8
  slices_S4096x8_o1536_0_S128x8 : S4096x8.Slices ![1536, 0] S128x8
  slices_S4096x8_o1664_0_S128x8 : S4096x8.Slices ![1664, 0] S128x8
  slices_S4096x8_o1792_0_S128x8 : S4096x8.Slices ![1792, 0] S128x8
  slices_S4096x8_o1920_0_S128x8 : S4096x8.Slices ![1920, 0] S128x8
  slices_S4096x8_o2048_0_S128x8 : S4096x8.Slices ![2048, 0] S128x8
  slices_S4096x8_o2176_0_S128x8 : S4096x8.Slices ![2176, 0] S128x8
  slices_S4096x8_o2304_0_S128x8 : S4096x8.Slices ![2304, 0] S128x8
  slices_S4096x8_o2432_0_S128x8 : S4096x8.Slices ![2432, 0] S128x8
  slices_S4096x8_o2560_0_S128x8 : S4096x8.Slices ![2560, 0] S128x8
  slices_S4096x8_o2688_0_S128x8 : S4096x8.Slices ![2688, 0] S128x8
  slices_S4096x8_o2816_0_S128x8 : S4096x8.Slices ![2816, 0] S128x8
  slices_S4096x8_o2944_0_S128x8 : S4096x8.Slices ![2944, 0] S128x8
  slices_S4096x8_o3072_0_S128x8 : S4096x8.Slices ![3072, 0] S128x8
  slices_S4096x8_o3200_0_S128x8 : S4096x8.Slices ![3200, 0] S128x8
  slices_S4096x8_o3328_0_S128x8 : S4096x8.Slices ![3328, 0] S128x8
  slices_S4096x8_o3456_0_S128x8 : S4096x8.Slices ![3456, 0] S128x8
  slices_S4096x8_o3584_0_S128x8 : S4096x8.Slices ![3584, 0] S128x8
  slices_S4096x8_o3712_0_S128x8 : S4096x8.Slices ![3712, 0] S128x8
  slices_S4096x8_o3840_0_S128x8 : S4096x8.Slices ![3840, 0] S128x8
  slices_S4096x8_o3968_0_S128x8 : S4096x8.Slices ![3968, 0] S128x8
  reduces_S8x4096_S4096 : S8x4096.Reduces [0] S4096
  reduces_S1x4096_S1 : S1x4096.Reduces [1] S1
  shapeCasts_S1x1_S1x1 : S1x1.ShapeCasts S1x1
  shapeCasts_S1x1_S_ : S1x1.ShapeCasts S_
  dot_S128x8_S8x4096_S128x4096_1_0_0_1_n_n_wf : DotDims.WF S128x8 S8x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S4x4096x3.size a
  hwx0_0 : ∀ i : grid0.Coords, EltTy.bits .f32 = 32 ∨ (Rect.block (s := S4x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S4x4096x3.size a
  hwx0_1 : ∀ i : grid0.Coords, EltTy.bits .f32 = 32 ∨ (Rect.block (s := S4x4096x3) S1x4096x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S128x8_S8x4096_S128x4096_1_0_0_1_n_n : DotDims S128x8 S8x4096 S128x4096 where
  lhsContracting := [1]
  rhsContracting := [0]
  lhsNonContracting := [0]
  rhsNonContracting := [1]
  lhsBatch := []
  rhsBatch := []
  wf := dot_S128x8_S8x4096_S128x4096_1_0_0_1_n_n_wf

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.KChunk.lean ====
/-
  The body's arithmetic, named step by step. The 4096 x 8 left operand is cut into 32 chunks of 128 rows; each chunk is
  multiplied with the whole 8 x 4096 right operand, giving 128 rows of the squared-distance matrix. From a chunk the
  body takes two things: the sum over its rows of the clamped row minimum (the row part), and, with the rows grouped
  16 x 8, the minimum over the 16 groups (the column part, 8 partial column minima per column). The row parts are added
  up chunk after chunk; the column parts are combined by minimum, then clamped, reduced over the 8 and summed over the
  columns. Both sums are weighted by 2^-15 and added to what the output block held before.
  Everything here is stated for any float instance: these are names for sub-terms of the printed body.
-/
import proofs.«174885_g21801253994783_cont_8to1_138_22_alg».proof.KernelIdeal

noncomputable section

namespace Cert.KernelIdeal.Chamfer

open Idealize.ShloMosaic Cert.KernelIdeal

variable {F : FTy → Type} [FloatOps F] [Cert.KernelIdeal.Facts]

/-- Rows o .. o+127 of the left operand. -/
def sliceAt (o : Nat) (h : S4096x8.Slices ![o, 0] S128x8) (lhs : FVec F S4096x8 .bf16) : FVec F S128x8 .bf16 :=
  extractStridedSlice S128x8 ![o, 0] lhs h

/-- A chunk's 128 x 4096 product with the right operand, into the zero accumulator `z`. -/
def chunkInto (s : FVec F S128x8 .bf16) (rhs : FVec F S8x4096 .bf16) (z : FVec F S128x4096 .f32) : FVec F S128x4096 .f32 :=
  matmul dot_S128x8_S8x4096_S128x4096_1_0_0_1_n_n none s rhs z

def chunkOf (s : FVec F S128x8 .bf16) (rhs : FVec F S8x4096 .bf16) : FVec F S128x4096 .f32 :=
  chunkInto s rhs (constant S128x4096 .f32 0x00000000#32)

def chunkAt (o : Nat) (h : S4096x8.Slices ![o, 0] S128x8) (lhs : FVec F S4096x8 .bf16) (rhs : FVec F S8x4096 .bf16) :
    FVec F S128x4096 .f32 :=
  chunkOf (sliceAt o h lhs) rhs

/-- Each row's minimum over the 4096 columns, as a column. -/
def rowMin (f : FVec F S128x4096 .f32) : FVec F S128x1 .f32 :=
  shapeCast S128x1 (multiReduction .minimumf [1] S128 f 0x7F800000#32 Facts₀.reduces_S128x4096_S128 (.inl rfl) rfl)
    Facts₀.shapeCasts_S128_S128x1

def zeroCol : FVec F S128x1 .f32 := broadcast S128x1 (Scalar.ofBits .f32 0x00000000#32)

/-- The row minima clamped at zero. -/
def rowClamp (f : FVec F S128x4096 .f32) : FVec F S128x1 .f32 := maximumf (rowMin f) zeroCol

/-- The sum of a column of 128 entries, as a 1 x 1 block. -/
def rowSum (c : FVec F S128x1 .f32) : FVec F S1x1 .f32 :=
  shapeCast S1x1 (multiReduction .add [0] S1 c 0x00000000#32 Facts₀.reduces_S128x1_S1 (.inl rfl) rfl) Facts₀.shapeCasts_S1_S1x1

/-- A chunk's row part. -/
def rowPart (f : FVec F S128x4096 .f32) : FVec F S1x1 .f32 := rowSum (rowClamp f)

/-- A chunk's column part: rows grouped 16 x 8, the minimum over the 16 groups. -/
def colPart (f : FVec F S128x4096 .f32) : FVec F S8x4096 .f32 :=
  multiReduction .minimumf [0] S8x4096 (shapeCast S16x8x4096 f Facts₀.shapeCasts_S128x4096_S16x8x4096) 0x7F800000#32
    Facts₀.reduces_S16x8x4096_S8x4096 (.inl rfl) rfl

/-- The row parts of further chunks added onto a running sum, in order. -/
def rowAcc (a : FVec F S1x1 .f32) (fs : List (FVec F S128x4096 .f32)) : FVec F S1x1 .f32 :=
  fs.foldl (fun a f => addf a (rowPart f)) a

/-- The column parts of further chunks combined onto a running minimum, in order. -/
def colAcc (a : FVec F S8x4096 .f32) (fs : List (FVec F S128x4096 .f32)) : FVec F S8x4096 .f32 :=
  fs.foldl (fun a f => minimumf a (colPart f)) a

/-- From the 8 partial column minima: clamp at zero, minimum over the 8, sum over the 4096 columns. -/
def colFinish (M : FVec F S8x4096 .f32) : FVec F S1x1 .f32 :=
  shapeCast S1x1
    (multiReduction .add [1] S1
      (shapeCast S1x4096
        (multiReduction .minimumf [0] S4096 (maximumf M (broadcast S8x4096 (Scalar.ofBits .f32 0x00000000#32))) 0x7F800000#32
          Facts₀.reduces_S8x4096_S4096 (.inl rfl) rfl)
        Facts₀.shapeCasts_S4096_S1x4096)
      0x00000000#32 Facts₀.reduces_S1x4096_S1 (.inl rfl) rfl)
    Facts₀.shapeCasts_S1_S1x1

/-- Both sums weighted by 2^-15 and added to the block's previous contents. -/
def accumulate (prev : Vec F S1x1 .f32) (R C : FVec F S1x1 .f32) : FVec F S1x1 .f32 :=
  addf (shapeCast S1x1 prev Facts₀.shapeCasts_S1x1_S1x1)
    (addf (mulf R (broadcast S1x1 (Scalar.ofBits .f32 0x38000000#32))) (mulf C (broadcast S1x1 (Scalar.ofBits .f32 0x38000000#32))))

theorem rowAcc_append (a : FVec F S1x1 .f32) (l₁ l₂ : List (FVec F S128x4096 .f32)) :
    rowAcc (rowAcc a l₁) l₂ = rowAcc a (l₁ ++ l₂) := (List.foldl_append ..).symm

theorem colAcc_append (a : FVec F S8x4096 .f32) (l₁ l₂ : List (FVec F S128x4096 .f32)) :
    colAcc (colAcc a l₁) l₂ = colAcc a (l₁ ++ l₂) := (List.foldl_append ..).symm

end Cert.KernelIdeal.Chamfer

end
-- ==== Proof.KFold.lean ====
/-
  The printed body computes its two running quantities in ten stretches whose boundaries fall where they fall: some cut a
  chunk between its row minimum and the clamp, some between the cut of the left operand and the product. Here each stretch
  is shown to be one step of the two folds over the 32 chunks -- add the row parts of the next three or four chunks, take
  the minimum with their column parts -- so that the whole body is: the row parts of all chunks added in order, the column
  parts of all chunks combined by minimum and finished, both weighted and added to the block's previous contents. Every
  statement is an unfolding of names; no arithmetic happens here.
-/
import proofs.«174885_g21801253994783_cont_8to1_138_22_alg».proof.Proof.Gen.KernelIdeal.Skeleton
import proofs.«174885_g21801253994783_cont_8to1_138_22_alg».proof.Proof.KChunk

noncomputable section

namespace Cert.KernelIdeal.Chamfer

open Idealize.ShloMosaic Cert.KernelIdeal Cert.KernelIdeal.Gen

variable {F : FTy → Type} [FloatOps F]

section steps
variable (L : FVec F S4096x8 .bf16) (R : FVec F S8x4096 .bf16)

/-! ### The row sums, stretch by stretch -/

theorem row_step2 (a : FVec F S1x1 .f32) : k0_pay11 L R a = rowAcc a [k0_pay8 L R, k0_pay9 L R, k0_pay10 L R] := rfl
theorem row_step3 (a : FVec F S1x1 .f32) (z : F .f32) (hz : z = Scalar.ofBits .f32 0x00000000#32) :
    k0_pay19 L R a (k0_pay14 L R) z = rowAcc a [k0_pay13 L R, k0_pay15 L R, k0_pay16 L R, k0_pay18 L R] := by subst hz; rfl
theorem row_step4 (a : FVec F S1x1 .f32) : k0_pay24 L R a = rowAcc a [k0_pay21 L R, k0_pay22 L R, k0_pay23 L R] := rfl
theorem row_step5 (a : FVec F S1x1 .f32) :
    k0_pay32 L R a (k0_pay27 L R) k0_pay28 = rowAcc a [k0_pay26 L R, k0_pay29 L R, k0_pay30 L R, k0_pay31 L R] := rfl
theorem row_step6 (a : FVec F S1x1 .f32) : k0_pay37 L R a = rowAcc a [k0_pay34 L R, k0_pay35 L R, k0_pay36 L R] := rfl
theorem row_step7 (a : FVec F S1x1 .f32) :
    k0_pay44 L R a (k0_pay40 L R) = rowAcc a [k0_pay39 L R, k0_pay41 L R, k0_pay42 L R, k0_pay43 L R] := rfl
theorem row_step8 (a : FVec F S1x1 .f32) :
    k0_pay50 L R a (k0_pay46 L) = rowAcc a [k0_pay47 R (k0_pay46 L), k0_pay48 L R, k0_pay49 L R] := rfl
theorem row_step9 (a : FVec F S1x1 .f32) :
    k0_pay57 L R a (k0_pay53 L R) = rowAcc a [k0_pay52 L R, k0_pay54 L R, k0_pay55 L R, k0_pay56 L R] := rfl
theorem row_step10 (a : FVec F S1x1 .f32) (zc : FVec F S128x4096 .f32) :
    k0_pay63 L R a (k0_pay59 L) zc = rowAcc a [k0_pay60 R (k0_pay59 L) zc, k0_pay61 L R, k0_pay62 L R] := rfl

/-! ### The partial column minima, stretch by stretch -/

theorem col_step2 (f0 : FVec F S128x4096 .f32) :
    k0_pay12 L R (shapeCast S16x8x4096 f0 Facts₀.shapeCasts_S128x4096_S16x8x4096)
      = colAcc (colPart f0) [k0_pay8 L R, k0_pay9 L R, k0_pay10 L R] := rfl
theorem col_step3 (a : FVec F S8x4096 .f32) :
    k0_pay17 L R a (k0_pay13 L R) = colAcc a [k0_pay13 L R, k0_pay15 L R, k0_pay16 L R] := rfl
theorem col_step4 (a : FVec F S8x4096 .f32) :
    k0_pay25 L R a (k0_pay20 L R) = colAcc a [k0_pay18 L R, k0_pay21 L R, k0_pay22 L R, k0_pay23 L R] := rfl
theorem col_step5 (a : FVec F S8x4096 .f32) :
    k0_pay33 L R a (k0_pay26 L R) = colAcc a [k0_pay26 L R, k0_pay29 L R, k0_pay30 L R, k0_pay31 L R] := rfl
theorem col_step6 (a : FVec F S8x4096 .f32) : k0_pay38 L R a = colAcc a [k0_pay34 L R, k0_pay35 L R, k0_pay36 L R] := rfl
theorem col_step7 (a : FVec F S8x4096 .f32) :
    k0_pay45 L R a (k0_pay39 L R) = colAcc a [k0_pay39 L R, k0_pay41 L R, k0_pay42 L R, k0_pay43 L R] := rfl
theorem col_step8 (a : FVec F S8x4096 .f32) :
    k0_pay51 L R a (k0_pay46 L) = colAcc a [k0_pay47 R (k0_pay46 L), k0_pay48 L R, k0_pay49 L R] := rfl
theorem col_step9 (a : FVec F S8x4096 .f32) :
    k0_pay58 L R a (k0_pay52 L R) = colAcc a [k0_pay52 L R, k0_pay54 L R, k0_pay55 L R, k0_pay56 L R] := rfl
theorem col_step10 (a : FVec F S8x4096 .f32) (zc : FVec F S128x4096 .f32) :
    k0_pay64 L R a (k0_pay59 L) zc = colFinish (colAcc a [k0_pay60 R (k0_pay59 L) zc, k0_pay61 L R, k0_pay62 L R]) := rfl

end steps

/-! ### The whole body -/

section whole
variable (X0 X1 : Vec F S1x4096x3 .f32)

/-- The 32 chunks' products, in order, as the body spells them. -/
def chunks : List (FVec F S128x4096 .f32) :=
  let L := k0_pay3 X0
  let R := k0_pay4 X1
  [k0_pay5 X0 X1,
   k0_pay8 L R,
   k0_pay9 L R,
   k0_pay10 L R,
   k0_pay13 L R,
   k0_pay15 L R,
   k0_pay16 L R,
   k0_pay18 L R,
   k0_pay21 L R,
   k0_pay22 L R,
   k0_pay23 L R,
   k0_pay26 L R,
   k0_pay29 L R,
   k0_pay30 L R,
   k0_pay31 L R,
   k0_pay34 L R,
   k0_pay35 L R,
   k0_pay36 L R,
   k0_pay39 L R,
   k0_pay41 L R,
   k0_pay42 L R,
   k0_pay43 L R,
   k0_pay47 R (k0_pay46 L),
   k0_pay48 L R,
   k0_pay49 L R,
   k0_pay52 L R,
   k0_pay54 L R,
   k0_pay55 L R,
   k0_pay56 L R,
   k0_pay60 R (k0_pay59 L) (constant S128x4096 .f32 0x00000000#32),
   k0_pay61 L R,
   k0_pay62 L R]

/-- The row sum the body ends with: the ten stretches composed. -/
def rowTotal : FVec F S1x1 .f32 :=
  let L := k0_pay3 X0
  let R := k0_pay4 X1
  k0_pay63 L R (k0_pay57 L R (k0_pay50 L R (k0_pay44 L R (k0_pay37 L R (k0_pay32 L R (k0_pay24 L R
    (k0_pay19 L R (k0_pay11 L R (k0_pay6 X0 X1)) (k0_pay14 L R) (Scalar.ofBits .f32 0x00000000#32)))
    (k0_pay27 L R) k0_pay28)) (k0_pay40 L R)) (k0_pay46 L)) (k0_pay53 L R)) (k0_pay59 L) (constant S128x4096 .f32 0x00000000#32)

/-- The column sum the body ends with: the ten stretches composed. -/
def colTotal : FVec F S1x1 .f32 :=
  let L := k0_pay3 X0
  let R := k0_pay4 X1
  k0_pay64 L R (k0_pay58 L R (k0_pay51 L R (k0_pay45 L R (k0_pay38 L R (k0_pay33 L R (k0_pay25 L R
    (k0_pay17 L R (k0_pay12 L R (k0_pay7 X0 X1)) (k0_pay13 L R)) (k0_pay20 L R)) (k0_pay26 L R))) (k0_pay39 L R)) (k0_pay46 L))
    (k0_pay52 L R)) (k0_pay59 L) (constant S128x4096 .f32 0x00000000#32)

/-- The row sum is the row parts of the 32 chunks added in order. -/
theorem rowTotal_eq : rowTotal X0 X1 = rowAcc (rowPart (k0_pay5 X0 X1)) (chunks X0 X1).tail := by
  unfold rowTotal
  dsimp only
  rw [row_step10, row_step9, row_step8, row_step7, row_step6, row_step5, row_step4, row_step3 _ _ _ _ rfl, row_step2]
  simp only [rowAcc_append]
  rfl

/-- The column sum is the column parts of the 32 chunks combined by minimum in order, finished. -/
theorem colTotal_eq : colTotal X0 X1 = colFinish (colAcc (colPart (k0_pay5 X0 X1)) (chunks X0 X1).tail) := by
  unfold colTotal
  dsimp only
  rw [col_step10, col_step9, col_step8, col_step7, col_step6, col_step5, col_step4, col_step3]
  rw [show k0_pay7 X0 X1 = shapeCast S16x8x4096 (k0_pay5 X0 X1) Facts₀.shapeCasts_S128x4096_S16x8x4096 from rfl, col_step2]
  simp only [colAcc_append]
  rfl

/-- The value the body stores: the block's previous contents plus the two weighted sums. -/
theorem stored_eq (prev : Vec F S1x1 .f32) :
    k0_pay1 (rowTotal X0 X1) (colTotal X0 X1) prev
      = accumulate prev (rowAcc (rowPart (k0_pay5 X0 X1)) (chunks X0 X1).tail)
          (colFinish (colAcc (colPart (k0_pay5 X0 X1)) (chunks X0 X1).tail)) := by
  rw [rowTotal_eq, colTotal_eq]
  rfl

end whole

/-! ### Chunk k is rows 128 k .. 128 k + 127 -/

/-- Rows 128 k .. 128 k + 127 lie inside the 4096 x 8 operand for k < 32. -/
theorem slices_chunk (k : Fin 32) : S4096x8.Slices ![128 * k.val, 0] S128x8 :=
  ⟨rfl, fun a => by
    match a with
    | ⟨0, _⟩ => show 128 * k.val + 128 ≤ 4096; omega
    | ⟨1, _⟩ => show 0 + 8 ≤ 8; omega⟩

theorem chunks_length (X0 X1 : Vec F S1x4096x3 .f32) : (chunks X0 X1).length = 32 := rfl

theorem chunks_get (X0 X1 : Vec F S1x4096x3 .f32) (k : Fin 32) :
    (chunks X0 X1)[k.val]'(by rw [chunks_length]; exact k.isLt) = chunkAt (128 * k.val) (slices_chunk k) (k0_pay3 X0) (k0_pay4 X1) := by
  fin_cases k <;> rfl

end Cert.KernelIdeal.Chamfer

end
-- ==== Proof.KPiece.lean ====
/-
  What one run of the body leaves in the output block. The block is a single entry, written through the whole-block
  rectangle, so what is left is the last store's value. At the first grid point the body first stores zero and then reads
  it back, so the value is the two weighted sums added to zero; at every later point it is the two weighted sums added to
  what the point before left. The input blocks are read whole, so the sums are those of the blocks' contents.
-/
import proofs.«174885_g21801253994783_cont_8to1_138_22_alg».proof.Proof.Gen.KernelIdeal.Frame
import proofs.«174885_g21801253994783_cont_8to1_138_22_alg».proof.Proof.KFold
import Idealize.ShloMosaic.Lib.Pipeline.Value

set_option maxRecDepth 16384

noncomputable section

namespace Cert.KernelIdeal.Chamfer

open Idealize.ShloMosaic Idealize.ShloMosaic.TcCoe Idealize.ShloMosaic.Tactic
open Idealize.SL Idealize.SL.Sem
open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- A later grid point: the sums of this point's blocks, weighted, added to the carried contents. -/
theorem out_later (c : Dev nD) (i : grid0.Coords) (arg1 : Memref sig .tc .vmem S1x4096x3 .f32) (harg1 : arg1.IsWhole)
    (arg2 : Memref sig .tc .vmem S1x4096x3 .f32) (harg2 : arg2.IsWhole) (arg3 : Memref sig .tc .vmem S1x1 .f32) (harg3 : arg3.IsWhole)
    (hc0 : ¬cond0_0 i) (x0 x1 : Vec F S1x4096x3 .f32) (xo2 : Vec F S1x1 .f32) :
    out0_B_2 c i arg1 harg1 arg2 harg2 arg3 harg3 hc0 x0 x1 xo2 = k0_pay1 (rowTotal x0 x1) (colTotal x0 x1) xo2 := by
  unfold out0_B_2
  rw [View.read_writes_eq_canon _ _ _ (cover0_B_2 c i arg1 harg1 arg2 harg2 arg3 harg3 hc0 x0 x1 xo2)]
  unfold kernelRun0_B
  dsimp only
  sl_unfold_words
  rw [View.canon_unit_zero (S := S1x1) zero2]
  simp only [View.readAt_eq_ld, harg1.read_unread, harg2.read_unread, harg3.read_unread,
    View.ld_unit_zero (S := S1x4096x3) zero3, View.ld_unit_zero (S := S1x1) zero2]
  rfl

/-- The first grid point: the same sums added to the zero just stored. -/
theorem out_first (c : Dev nD) (i : grid0.Coords) (arg1 : Memref sig .tc .vmem S1x4096x3 .f32) (harg1 : arg1.IsWhole)
    (arg2 : Memref sig .tc .vmem S1x4096x3 .f32) (harg2 : arg2.IsWhole) (arg3 : Memref sig .tc .vmem S1x1 .f32) (harg3 : arg3.IsWhole)
    (hc0 : cond0_0 i) (x0 x1 : Vec F S1x4096x3 .f32) :
    out0_A_2 c i arg1 harg1 arg2 harg2 arg3 harg3 hc0 x0 x1 = k0_pay1 (rowTotal x0 x1) (colTotal x0 x1) k0_pay2 := by
  unfold out0_A_2
  rw [View.read_writes_eq_canon _ _ _ (cover0_A_2 c i arg1 harg1 arg2 harg2 arg3 harg3 hc0 x0 x1)]
  unfold kernelRun0_A
  dsimp only
  sl_unfold_words
  rw [View.canon_cons_unit_zero (S := S1x1) zero2, View.readCov_unit_zero (S := S1x1) _ zero2]
  simp only [View.readAt_eq_ld, harg1.read_unread, harg2.read_unread, View.ld_unit_zero (S := S1x4096x3) zero3]
  rfl

end Cert.KernelIdeal.Chamfer

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibAxisSums.lean ====
/-
  Two readings of sums over small index sets:
  • at the ideal values a float sum reduction over the FIRST axis of an `[a, b]` matrix, read at column `c`, is the sum
    over `r : Fin a` of the entries `(r, c)` (the companion of the last-axis reading, which sums a row);
  • a rank-1 index set `[n]` is its one coordinate's range, so a sum over it is the sum over `Fin n` at `ix1`.
-/
import Idealize.ShloMosaic.Lib.ValueIdx
import Idealize.ShloMosaic.PureOps.Ideal.Laws

noncomputable section

open scoped BigOperators

namespace Cert.LibAxisSums

open Idealize.ShloMosaic Idealize.ShloMosaic.ValueIdx

/-- At the ideal values a float sum reduction over the FIRST axis of an `[a, b]` matrix, read at column `c`, is the sum
    of that column's `a` entries. -/
theorem multiReduction_add_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src ?_
  funext ax; apply Fin.ext
  match ax with
  | ⟨0, _⟩ => rfl
  | ⟨1, _⟩ => rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

end Cert.LibAxisSums

end
-- ==== Proof.Consts.lean ====
/-
  The float words the two programs spell, as the extended reals they denote: the scale -2 inside the product, the
  reference's 2, the units and zeros that pad the product's operands, the common weight 2^-15 of both directional
  sums, the reference's point count 16384, and +inf, from which every minimum starts.
-/
import Idealize.ShloMosaic.PureOps.Ideal

noncomputable section

namespace Cert.Chamfer.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul]; norm_num

/-- 0.5 / 16384 = 2^-15 is a power of two, so the word is that rational exactly. -/
theorem ofBits_weight : Ideal.ofBits .f32 0x38000000#32 = ((1 / 32768 : ℝ) : EReal) := by
  simp [Ideal.ofBits, Ideal.ieee, -EReal.coe_mul]; norm_num

theorem ofBits_count : Ideal.ofBits .f32 0x46800000#32 = ((16384 : ℝ) : EReal) := by
  simp [Ideal.ofBits, Ideal.ieee, -EReal.coe_mul]; norm_num

theorem ofBits_top : Ideal.ofBits .f32 0x7F800000#32 = ⊤ := by
  simp [Ideal.ofBits, Ideal.ieee]

end Cert.Chamfer.Consts

end
-- ==== Proof.KOperands.lean ====
/-
  The two operands of the product, entry by entry. Row n of the left operand is
      (-2 p_n0, -2 p_n1, -2 p_n2, |p_n|^2, |p_n|^2 - |p_n|^2, 1, 1, 0)
  and column m of the right operand is
      (t_m0, t_m1, t_m2, 1, 1, |t_m|^2, |t_m|^2 - |t_m|^2, 0),
  where p_n and t_m are the rows of the two input blocks and |.|^2 is the sum of the three squared coordinates. The
  narrowing to bf16 does nothing to an exact value.
-/
import proofs.«174885_g21801253994783_cont_8to1_138_22_alg».proof.Proof.Gen.KernelIdeal.Skeleton
import proofs.«174885_g21801253994783_cont_8to1_138_22_alg».proof.Proof.LibKeepdims
import proofs.«174885_g21801253994783_cont_8to1_138_22_alg».proof.Proof.LibAxisSums
import Idealize.ShloMosaic.Lib.Pipeline.Value
import Idealize.ShloMosaic.Lib.ValueIdx
import Idealize.ShloMosaic.Lib.ValueLayout
import proofs.«174885_g21801253994783_cont_8to1_138_22_alg».proof.Proof.Consts

noncomputable section

namespace Cert.KernelIdeal.Chamfer

open Idealize.ShloMosaic Idealize.ShloMosaic.ValueIdx Cert.KernelIdeal Cert.KernelIdeal.Gen

/-! ### The pieces, for any float instance -/

section pieces
variable {F : FTy → Type} [FloatOps F]

/-- A block [1, 4096, 3] as its 4096 rows. -/
def rowsOf (X : Vec F S1x4096x3 .f32) : FVec F S4096x3 .f32 := shapeCast S4096x3 X Facts₀.shapeCasts_S1x4096x3_S4096x3

/-- The squared norm of every row, as a column. -/
def sqNormCol (X : Vec F S1x4096x3 .f32) : FVec F S4096x1 .f32 :=
  shapeCast S4096x1
    (multiReduction .add [1] S4096 (mulf (rowsOf X) (rowsOf X)) 0x00000000#32 Facts₀.reduces_S4096x3_S4096 (.inl rfl) rfl)
    Facts₀.shapeCasts_S4096_S4096x1

/-- The six column groups of the left operand. -/
def lhsPieces (X : Vec F S1x4096x3 .f32) : List ((s : Shape) × (s.Idx → F .f32)) :=
  [⟨S4096x3, mulf (broadcast S4096x3 (Scalar.ofBits .f32 0xC0000000#32)) (rowsOf X)⟩,
   ⟨S4096x1, sqNormCol X⟩,
   ⟨S4096x1, subf (sqNormCol X) (sqNormCol X)⟩,
   ⟨S4096x1, broadcast S4096x1 (Scalar.ofBits .f32 0x3F800000#32)⟩,
   ⟨S4096x1, broadcast S4096x1 (Scalar.ofBits .f32 0x3F800000#32)⟩,
   ⟨S4096x1, broadcast S4096x1 (Scalar.ofBits .f32 0x00000000#32)⟩]

theorem pay3_eq (X : Vec F S1x4096x3 .f32) :
    k0_pay3 X = truncf .bf16 (concatenate S4096x8 1 (lhsPieces X)
      Facts₀.concatenates_S4096x3_S4096x1_S4096x1_S4096x1_S4096x1_S4096x1_S4096x8_d1) Facts₀.bitsLt_bf16_f32 := rfl

/-- A block's rows turned into columns: [3, 4096]. -/
def colsOf (X : Vec F S1x4096x3 .f32) : FVec F S3x4096 .f32 :=
  transpose S3x4096 [1, 0] (rowsOf X) Facts₀.transposes_S4096x3_p1_0_S3x4096

/-- The squared norm of every row of the block, as a row. -/
def sqNormRow (X : Vec F S1x4096x3 .f32) : FVec F S1x4096 .f32 :=
  shapeCast S1x4096
    (multiReduction .add [0] S4096 (mulf (colsOf X) (colsOf X)) 0x00000000#32 Facts₀.reduces_S3x4096_S4096 (.inl rfl) rfl)
    Facts₀.shapeCasts_S4096_S1x4096

/-- The six row groups of the right operand. -/
def rhsPieces (X : Vec F S1x4096x3 .f32) : List ((s : Shape) × (s.Idx → F .f32)) :=
  [⟨S3x4096, colsOf X⟩,
   ⟨S1x4096, broadcast S1x4096 (Scalar.ofBits .f32 0x3F800000#32)⟩,
   ⟨S1x4096, broadcast S1x4096 (Scalar.ofBits .f32 0x3F800000#32)⟩,
   ⟨S1x4096, sqNormRow X⟩,
   ⟨S1x4096, subf (sqNormRow X) (sqNormRow X)⟩,
   ⟨S1x4096, broadcast S1x4096 (Scalar.ofBits .f32 0x00000000#32)⟩]

theorem pay4_eq (X : Vec F S1x4096x3 .f32) :
    k0_pay4 X = truncf .bf16 (concatenate S8x4096 0 (rhsPieces X) Facts₀.concatenates_S3x4096_S1x4096_S1x4096_S1x4096_S1x4096_S1x4096_S8x4096_d0) Facts₀.bitsLt_bf16_f32 := rfl

end pieces

/-! ### At the exact values -/

/-- Row n of a block, coordinate d. -/
def coord (X : Vec Ideal S1x4096x3 .f32) (n : Fin 4096) (d : Fin 3) : EReal := X (ix3 (0 : Fin 1) n d)

/-- The squared norm of row n. -/
def sqNorm (X : Vec Ideal S1x4096x3 .f32) (n : Fin 4096) : EReal := ∑ d : Fin 3, coord X n d * coord X n d

theorem rowsOf_apply (X : Vec Ideal S1x4096x3 .f32) (n : Fin 4096) (d : Fin 3) : rowsOf X (ix2 n d) = coord X n d :=
  shapeCast_1ab_ab_apply (a := 4096) (b := 3) X _ n d

theorem sqNormCol_apply (X : Vec Ideal S1x4096x3 .f32) (n : Fin 4096) (u : Fin 1) : sqNormCol X (ix2 n u) = sqNorm X n := by
  unfold sqNormCol sqNorm
  refine (Cert.LibKeepdims.shapeCast_a_a1_apply (a := 4096) _ _ n u).trans ?_
  refine (Cert.LibKeepdims.multiReduction_add_lastAxis_apply (a := 4096) (b := 3) _ _ _ _ _ n).trans ?_
  refine Finset.sum_congr rfl fun d _ => ?_
  rw [mulf_apply, rowsOf_apply]

/-! ### The left operand, column by column -/

theorem lhs_c0 (X : Vec Ideal S1x4096x3 .f32) (n : Fin 4096) :
    k0_pay3 X (ix2 n (0 : Fin 8)) = ((-2 : ℝ) : EReal) * coord X n (0 : Fin 3) := by
  rw [pay3_eq]
  show concatenate S4096x8 1 (lhsPieces X) Facts₀.concatenates_S4096x3_S4096x1_S4096x1_S4096x1_S4096x1_S4096x1_S4096x8_d1 (ix2 n (0 : Fin 8)) = _
  refine (concatenate_apply_piece (t := S4096x8) 1 (lhsPieces X) Facts₀.concatenates_S4096x3_S4096x1_S4096x1_S4096x1_S4096x1_S4096x1_S4096x8_d1 (ix2 n (0 : Fin 8)) 0 (by show 0 < 6; decide) S4096x3
    (mulf (broadcast S4096x3 (Scalar.ofBits .f32 0xC0000000#32)) (rowsOf X)) rfl rfl 0 rfl (ix2 n (0 : Fin 3))
    (fun b hb => by match b with | ⟨0, _⟩ => rfl | ⟨1, _⟩ => exact absurd rfl hb) rfl).trans ?_
  rw [mulf_apply, broadcast_apply, rowsOf_apply]
  exact congrArg (· * coord X n (0 : Fin 3)) Cert.Chamfer.Consts.ofBits_neg_two

theorem lhs_c1 (X : Vec Ideal S1x4096x3 .f32) (n : Fin 4096) :
    k0_pay3 X (ix2 n (1 : Fin 8)) = ((-2 : ℝ) : EReal) * coord X n (1 : Fin 3) := by
  rw [pay3_eq]
  show concatenate S4096x8 1 (lhsPieces X) Facts₀.concatenates_S4096x3_S4096x1_S4096x1_S4096x1_S4096x1_S4096x1_S4096x8_d1 (ix2 n (1 : Fin 8)) = _
  refine (concatenate_apply_piece (t := S4096x8) 1 (lhsPieces X) Facts₀.concatenates_S4096x3_S4096x1_S4096x1_S4096x1_S4096x1_S4096x1_S4096x8_d1 (ix2 n (1 : Fin 8)) 0 (by show 0 < 6; decide) S4096x3
    (mulf (broadcast S4096x3 (Scalar.ofBits .f32 0xC0000000#32)) (rowsOf X)) rfl rfl 0 rfl (ix2 n (1 : Fin 3))
    (fun b hb => by match b with | ⟨0, _⟩ => rfl | ⟨1, _⟩ => exact absurd rfl hb) rfl).trans ?_
  rw [mulf_apply, broadcast_apply, rowsOf_apply]
  exact congrArg (· * coord X n (1 : Fin 3)) Cert.Chamfer.Consts.ofBits_neg_two

theorem lhs_c2 (X : Vec Ideal S1x4096x3 .f32) (n : Fin 4096) :
    k0_pay3 X (ix2 n (2 : Fin 8)) = ((-2 : ℝ) : EReal) * coord X n (2 : Fin 3) := by
  rw [pay3_eq]
  show concatenate S4096x8 1 (lhsPieces X) Facts₀.concatenates_S4096x3_S4096x1_S4096x1_S4096x1_S4096x1_S4096x1_S4096x8_d1 (ix2 n (2 : Fin 8)) = _
  refine (concatenate_apply_piece (t := S4096x8) 1 (lhsPieces X) Facts₀.concatenates_S4096x3_S4096x1_S4096x1_S4096x1_S4096x1_S4096x1_S4096x8_d1 (ix2 n (2 : Fin 8)) 0 (by show 0 < 6; decide) S4096x3
    (mulf (broadcast S4096x3 (Scalar.ofBits .f32 0xC0000000#32)) (rowsOf X)) rfl rfl 0 rfl (ix2 n (2 : Fin 3))
    (fun b hb => by match b with | ⟨0, _⟩ => rfl | ⟨1, _⟩ => exact absurd rfl hb) rfl).trans ?_
  rw [mulf_apply, broadcast_apply, rowsOf_apply]
  exact congrArg (· * coord X n (2 : Fin 3)) Cert.Chamfer.Consts.ofBits_neg_two

theorem lhs_c3 (X : Vec Ideal S1x4096x3 .f32) (n : Fin 4096) : k0_pay3 X (ix2 n (3 : Fin 8)) = sqNorm X n := by
  rw [pay3_eq]
  show concatenate S4096x8 1 (lhsPieces X) Facts₀.concatenates_S4096x3_S4096x1_S4096x1_S4096x1_S4096x1_S4096x1_S4096x8_d1 (ix2 n (3 : Fin 8)) = _
  refine (concatenate_apply_piece (t := S4096x8) 1 (lhsPieces X) Facts₀.concatenates_S4096x3_S4096x1_S4096x1_S4096x1_S4096x1_S4096x1_S4096x8_d1 (ix2 n (3 : Fin 8)) 1 (by show 1 < 6; decide) S4096x1
    (sqNormCol X) rfl rfl 3 rfl (ix2 n (0 : Fin 1))
    (fun b hb => by match b with | ⟨0, _⟩ => rfl | ⟨1, _⟩ => exact absurd rfl hb) rfl).trans ?_
  exact sqNormCol_apply X n 0

theorem lhs_c4 (X : Vec Ideal S1x4096x3 .f32) (n : Fin 4096) : k0_pay3 X (ix2 n (4 : Fin 8)) = sqNorm X n - sqNorm X n := by
  rw [pay3_eq]
  show concatenate S4096x8 1 (lhsPieces X) Facts₀.concatenates_S4096x3_S4096x1_S4096x1_S4096x1_S4096x1_S4096x1_S4096x8_d1 (ix2 n (4 : Fin 8)) = _
  refine (concatenate_apply_piece (t := S4096x8) 1 (lhsPieces X) Facts₀.concatenates_S4096x3_S4096x1_S4096x1_S4096x1_S4096x1_S4096x1_S4096x8_d1 (ix2 n (4 : Fin 8)) 2 (by show 2 < 6; decide) S4096x1
    (subf (sqNormCol X) (sqNormCol X)) rfl rfl 4 rfl (ix2 n (0 : Fin 1))
    (fun b hb => by match b with | ⟨0, _⟩ => rfl | ⟨1, _⟩ => exact absurd rfl hb) rfl).trans ?_
  rw [subf_apply, sqNormCol_apply]

theorem lhs_c5 (X : Vec Ideal S1x4096x3 .f32) (n : Fin 4096) : k0_pay3 X (ix2 n (5 : Fin 8)) = 1 := by
  rw [pay3_eq]
  show concatenate S4096x8 1 (lhsPieces X) Facts₀.concatenates_S4096x3_S4096x1_S4096x1_S4096x1_S4096x1_S4096x1_S4096x8_d1 (ix2 n (5 : Fin 8)) = _
  refine (concatenate_apply_piece (t := S4096x8) 1 (lhsPieces X) Facts₀.concatenates_S4096x3_S4096x1_S4096x1_S4096x1_S4096x1_S4096x1_S4096x8_d1 (ix2 n (5 : Fin 8)) 3 (by show 3 < 6; decide) S4096x1
    (broadcast S4096x1 (Scalar.ofBits .f32 0x3F800000#32)) rfl rfl 5 rfl (ix2 n (0 : Fin 1))
    (fun b hb => by match b with | ⟨0, _⟩ => rfl | ⟨1, _⟩ => exact absurd rfl hb) rfl).trans ?_
  exact Cert.Chamfer.Consts.ofBits_one

theorem lhs_c6 (X : Vec Ideal S1x4096x3 .f32) (n : Fin 4096) : k0_pay3 X (ix2 n (6 : Fin 8)) = 1 := by
  rw [pay3_eq]
  show concatenate S4096x8 1 (lhsPieces X) Facts₀.concatenates_S4096x3_S4096x1_S4096x1_S4096x1_S4096x1_S4096x1_S4096x8_d1 (ix2 n (6 : Fin 8)) = _
  refine (concatenate_apply_piece (t := S4096x8) 1 (lhsPieces X) Facts₀.concatenates_S4096x3_S4096x1_S4096x1_S4096x1_S4096x1_S4096x1_S4096x8_d1 (ix2 n (6 : Fin 8)) 4 (by show 4 < 6; decide) S4096x1
    (broadcast S4096x1 (Scalar.ofBits .f32 0x3F800000#32)) rfl rfl 6 rfl (ix2 n (0 : Fin 1))
    (fun b hb => by match b with | ⟨0, _⟩ => rfl | ⟨1, _⟩ => exact absurd rfl hb) rfl).trans ?_
  exact Cert.Chamfer.Consts.ofBits_one

theorem lhs_c7 (X : Vec Ideal S1x4096x3 .f32) (n : Fin 4096) : k0_pay3 X (ix2 n (7 : Fin 8)) = 0 := by
  rw [pay3_eq]
  show concatenate S4096x8 1 (lhsPieces X) Facts₀.concatenates_S4096x3_S4096x1_S4096x1_S4096x1_S4096x1_S4096x1_S4096x8_d1 (ix2 n (7 : Fin 8)) = _
  refine (concatenate_apply_piece (t := S4096x8) 1 (lhsPieces X) Facts₀.concatenates_S4096x3_S4096x1_S4096x1_S4096x1_S4096x1_S4096x1_S4096x8_d1 (ix2 n (7 : Fin 8)) 5 (by show 5 < 6; decide) S4096x1
    (broadcast S4096x1 (Scalar.ofBits .f32 0x00000000#32)) rfl rfl 7 rfl (ix2 n (0 : Fin 1))
    (fun b hb => by match b with | ⟨0, _⟩ => rfl | ⟨1, _⟩ => exact absurd rfl hb) rfl).trans ?_
  exact Cert.Chamfer.Consts.ofBits_zero

/-! ### The right operand, row by row -/

theorem colsOf_apply (X : Vec Ideal S1x4096x3 .f32) (d : Fin 3) (m : Fin 4096) : colsOf X (ix2 d m) = coord X m d :=
  (transpose_ix2_apply (a := 4096) (b := 3) (rowsOf X) _ d m).trans (rowsOf_apply X m d)

theorem sqNormRow_apply (X : Vec Ideal S1x4096x3 .f32) (u : Fin 1) (m : Fin 4096) : sqNormRow X (ix2 u m) = sqNorm X m := by
  unfold sqNormRow sqNorm
  refine (shapeCast_a_1a_apply (a := 4096) _ _ u m).trans ?_
  refine (Cert.LibAxisSums.multiReduction_add_firstAxis_apply (a := 3) (b := 4096) _ _ _ _ _ m).trans ?_
  refine Finset.sum_congr rfl fun d _ => ?_
  rw [mulf_apply, colsOf_apply]

theorem rhs_r0 (X : Vec Ideal S1x4096x3 .f32) (m : Fin 4096) : k0_pay4 X (ix2 (0 : Fin 8) m) = coord X m (0 : Fin 3) := by
  rw [pay4_eq]
  show concatenate S8x4096 0 (rhsPieces X) Facts₀.concatenates_S3x4096_S1x4096_S1x4096_S1x4096_S1x4096_S1x4096_S8x4096_d0 (ix2 (0 : Fin 8) m) = _
  refine (concatenate_apply_piece (t := S8x4096) 0 (rhsPieces X) Facts₀.concatenates_S3x4096_S1x4096_S1x4096_S1x4096_S1x4096_S1x4096_S8x4096_d0 (ix2 (0 : Fin 8) m) 0 (by show 0 < 6; decide) S3x4096
    (colsOf X) rfl rfl 0 rfl (ix2 (0 : Fin 3) m)
    (fun b hb => by match b with | ⟨0, _⟩ => exact absurd rfl hb | ⟨1, _⟩ => rfl) rfl).trans ?_
  exact colsOf_apply X (0 : Fin 3) m

theorem rhs_r1 (X : Vec Ideal S1x4096x3 .f32) (m : Fin 4096) : k0_pay4 X (ix2 (1 : Fin 8) m) = coord X m (1 : Fin 3) := by
  rw [pay4_eq]
  show concatenate S8x4096 0 (rhsPieces X) Facts₀.concatenates_S3x4096_S1x4096_S1x4096_S1x4096_S1x4096_S1x4096_S8x4096_d0 (ix2 (1 : Fin 8) m) = _
  refine (concatenate_apply_piece (t := S8x4096) 0 (rhsPieces X) Facts₀.concatenates_S3x4096_S1x4096_S1x4096_S1x4096_S1x4096_S1x4096_S8x4096_d0 (ix2 (1 : Fin 8) m) 0 (by show 0 < 6; decide) S3x4096
    (colsOf X) rfl rfl 0 rfl (ix2 (1 : Fin 3) m)
    (fun b hb => by match b with | ⟨0, _⟩ => exact absurd rfl hb | ⟨1, _⟩ => rfl) rfl).trans ?_
  exact colsOf_apply X (1 : Fin 3) m

theorem rhs_r2 (X : Vec Ideal S1x4096x3 .f32) (m : Fin 4096) : k0_pay4 X (ix2 (2 : Fin 8) m) = coord X m (2 : Fin 3) := by
  rw [pay4_eq]
  show concatenate S8x4096 0 (rhsPieces X) Facts₀.concatenates_S3x4096_S1x4096_S1x4096_S1x4096_S1x4096_S1x4096_S8x4096_d0 (ix2 (2 : Fin 8) m) = _
  refine (concatenate_apply_piece (t := S8x4096) 0 (rhsPieces X) Facts₀.concatenates_S3x4096_S1x4096_S1x4096_S1x4096_S1x4096_S1x4096_S8x4096_d0 (ix2 (2 : Fin 8) m) 0 (by show 0 < 6; decide) S3x4096
    (colsOf X) rfl rfl 0 rfl (ix2 (2 : Fin 3) m)
    (fun b hb => by match b with | ⟨0, _⟩ => exact absurd rfl hb | ⟨1, _⟩ => rfl) rfl).trans ?_
  exact colsOf_apply X (2 : Fin 3) m

theorem rhs_r3 (X : Vec Ideal S1x4096x3 .f32) (m : Fin 4096) : k0_pay4 X (ix2 (3 : Fin 8) m) = 1 := by
  rw [pay4_eq]
  show concatenate S8x4096 0 (rhsPieces X) Facts₀.concatenates_S3x4096_S1x4096_S1x4096_S1x4096_S1x4096_S1x4096_S8x4096_d0 (ix2 (3 : Fin 8) m) = _
  refine (concatenate_apply_piece (t := S8x4096) 0 (rhsPieces X) Facts₀.concatenates_S3x4096_S1x4096_S1x4096_S1x4096_S1x4096_S1x4096_S8x4096_d0 (ix2 (3 : Fin 8) m) 1 (by show 1 < 6; decide) S1x4096
    (broadcast S1x4096 (Scalar.ofBits .f32 0x3F800000#32)) rfl rfl 3 rfl (ix2 (0 : Fin 1) m)
    (fun b hb => by match b with | ⟨0, _⟩ => exact absurd rfl hb | ⟨1, _⟩ => rfl) rfl).trans ?_
  exact Cert.Chamfer.Consts.ofBits_one

theorem rhs_r4 (X : Vec Ideal S1x4096x3 .f32) (m : Fin 4096) : k0_pay4 X (ix2 (4 : Fin 8) m) = 1 := by
  rw [pay4_eq]
  show concatenate S8x4096 0 (rhsPieces X) Facts₀.concatenates_S3x4096_S1x4096_S1x4096_S1x4096_S1x4096_S1x4096_S8x4096_d0 (ix2 (4 : Fin 8) m) = _
  refine (concatenate_apply_piece (t := S8x4096) 0 (rhsPieces X) Facts₀.concatenates_S3x4096_S1x4096_S1x4096_S1x4096_S1x4096_S1x4096_S8x4096_d0 (ix2 (4 : Fin 8) m) 2 (by show 2 < 6; decide) S1x4096
    (broadcast S1x4096 (Scalar.ofBits .f32 0x3F800000#32)) rfl rfl 4 rfl (ix2 (0 : Fin 1) m)
    (fun b hb => by match b with | ⟨0, _⟩ => exact absurd rfl hb | ⟨1, _⟩ => rfl) rfl).trans ?_
  exact Cert.Chamfer.Consts.ofBits_one

theorem rhs_r5 (X : Vec Ideal S1x4096x3 .f32) (m : Fin 4096) : k0_pay4 X (ix2 (5 : Fin 8) m) = sqNorm X m := by
  rw [pay4_eq]
  show concatenate S8x4096 0 (rhsPieces X) Facts₀.concatenates_S3x4096_S1x4096_S1x4096_S1x4096_S1x4096_S1x4096_S8x4096_d0 (ix2 (5 : Fin 8) m) = _
  refine (concatenate_apply_piece (t := S8x4096) 0 (rhsPieces X) Facts₀.concatenates_S3x4096_S1x4096_S1x4096_S1x4096_S1x4096_S1x4096_S8x4096_d0 (ix2 (5 : Fin 8) m) 3 (by show 3 < 6; decide) S1x4096
    (sqNormRow X) rfl rfl 5 rfl (ix2 (0 : Fin 1) m)
    (fun b hb => by match b with | ⟨0, _⟩ => exact absurd rfl hb | ⟨1, _⟩ => rfl) rfl).trans ?_
  exact sqNormRow_apply X 0 m

theorem rhs_r6 (X : Vec Ideal S1x4096x3 .f32) (m : Fin 4096) : k0_pay4 X (ix2 (6 : Fin 8) m) = sqNorm X m - sqNorm X m := by
  rw [pay4_eq]
  show concatenate S8x4096 0 (rhsPieces X) Facts₀.concatenates_S3x4096_S1x4096_S1x4096_S1x4096_S1x4096_S1x4096_S8x4096_d0 (ix2 (6 : Fin 8) m) = _
  refine (concatenate_apply_piece (t := S8x4096) 0 (rhsPieces X) Facts₀.concatenates_S3x4096_S1x4096_S1x4096_S1x4096_S1x4096_S1x4096_S8x4096_d0 (ix2 (6 : Fin 8) m) 4 (by show 4 < 6; decide) S1x4096
    (subf (sqNormRow X) (sqNormRow X)) rfl rfl 6 rfl (ix2 (0 : Fin 1) m)
    (fun b hb => by match b with | ⟨0, _⟩ => exact absurd rfl hb | ⟨1, _⟩ => rfl) rfl).trans ?_
  rw [subf_apply, sqNormRow_apply]

theorem rhs_r7 (X : Vec Ideal S1x4096x3 .f32) (m : Fin 4096) : k0_pay4 X (ix2 (7 : Fin 8) m) = 0 := by
  rw [pay4_eq]
  show concatenate S8x4096 0 (rhsPieces X) Facts₀.concatenates_S3x4096_S1x4096_S1x4096_S1x4096_S1x4096_S1x4096_S8x4096_d0 (ix2 (7 : Fin 8) m) = _
  refine (concatenate_apply_piece (t := S8x4096) 0 (rhsPieces X) Facts₀.concatenates_S3x4096_S1x4096_S1x4096_S1x4096_S1x4096_S1x4096_S8x4096_d0 (ix2 (7 : Fin 8) m) 5 (by show 5 < 6; decide) S1x4096
    (broadcast S1x4096 (Scalar.ofBits .f32 0x00000000#32)) rfl rfl 7 rfl (ix2 (0 : Fin 1) m)
    (fun b hb => by match b with | ⟨0, _⟩ => exact absurd rfl hb | ⟨1, _⟩ => rfl) rfl).trans ?_
  exact Cert.Chamfer.Consts.ofBits_zero

end Cert.KernelIdeal.Chamfer

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.SpecPoint.lean ====
/-
  One pair of points. For p, t in R^3 with squared norms p2, t2, the eight-term product
      (-2 p_0, -2 p_1, -2 p_2, p2, p2 - p2, 1, 1, 0) . (t_0, t_1, t_2, 1, 1, t2, t2 - t2, 0)
  is p2 + t2 - 2 <p, t>, the squared distance before clamping. The two differences p2 - p2 and t2 - t2 vanish
  because the norms are real numbers: on the extended reals an infinite norm minus itself would not be 0, so this is
  the one place where the inputs' finiteness is used.
-/
import Mathlib.Data.EReal.Operations
import Mathlib.Algebra.BigOperators.Fin
import Mathlib.Tactic.Ring
import Mathlib.Tactic.NormNum

noncomputable section

namespace Cert.Chamfer

/-- The eight products, in the order the contraction index runs, against the squared distance. -/
theorem sqdist_expand (P T : Fin 3 → ℝ) (p2 t2 : ℝ) :
    (((-2 : ℝ) : EReal) * (P 0 : EReal)) * (T 0 : EReal) + (((-2 : ℝ) : EReal) * (P 1 : EReal)) * (T 1 : EReal)
      + (((-2 : ℝ) : EReal) * (P 2 : EReal)) * (T 2 : EReal)
      + (p2 : EReal) * 1 + ((p2 : EReal) - (p2 : EReal)) * 1 + 1 * (t2 : EReal) + 1 * ((t2 : EReal) - (t2 : EReal)) + 0 * 0
    = ((p2 : EReal) + (t2 : EReal))
      - ((2 : ℝ) : EReal) * ((P 0 : EReal) * (T 0 : EReal) + (P 1 : EReal) * (T 1 : EReal) + (P 2 : EReal) * (T 2 : EReal)) := by
  have h1 : (1 : EReal) = ((1 : ℝ) : EReal) := rfl
  have h0 : (0 : EReal) = ((0 : ℝ) : EReal) := rfl
  rw [h1, h0]
  simp only [← EReal.coe_mul, ← EReal.coe_add, ← EReal.coe_sub]
  congr 1
  ring

end Cert.Chamfer

end
-- ==== Proof.KEntry.lean ====
/-
  An entry of a chunk's product. Entry (r, m) of chunk k is the eight-term product of row 128 k + r of the left operand
  with column m of the right operand; when the coordinates of both points are real numbers this is
      |p|^2 + |t|^2 - 2 <p, t>,
  the squared distance of point 128 k + r of the first block and point m of the second, not yet clamped.
-/
import proofs.«174885_g21801253994783_cont_8to1_138_22_alg».proof.Proof.KFold
import proofs.«174885_g21801253994783_cont_8to1_138_22_alg».proof.Proof.KOperands
import proofs.«174885_g21801253994783_cont_8to1_138_22_alg».proof.Proof.LibPlainMatmul
import proofs.«174885_g21801253994783_cont_8to1_138_22_alg».proof.Proof.SpecPoint
import Idealize.ShloMosaic.Lib.ValueLayout

noncomputable section

namespace Cert.KernelIdeal.Chamfer

open Idealize.ShloMosaic Idealize.ShloMosaic.ValueIdx Cert.KernelIdeal Cert.KernelIdeal.Gen

/-- Every entry of a block is a real number. -/
def IsReal (X : Vec Ideal S1x4096x3 .f32) : Prop := ∀ i, ∃ x : ℝ, X i = (x : EReal)

/-- The squared distance of point n of the first block and point m of the second, before clamping. -/
def sqd (X0 X1 : Vec Ideal S1x4096x3 .f32) (n m : Fin 4096) : EReal :=
  (sqNorm X0 n + sqNorm X1 m) - ((2 : ℝ) : EReal) * ∑ d : Fin 3, coord X0 n d * coord X1 m d

/-- The row of the whole operand that row r of chunk k is. -/
def rowOf (k : Fin 32) (r : Fin 128) : Fin 4096 := ⟨128 * k.val + r.val, by have := k.isLt; have := r.isLt; omega⟩

theorem chunk_entry (X0 X1 : Vec Ideal S1x4096x3 .f32) (h0 : IsReal X0) (h1 : IsReal X1) (k : Fin 32) (r : Fin 128)
    (m : Fin 4096) :
    chunkAt (128 * k.val) (slices_chunk k) (k0_pay3 X0) (k0_pay4 X1) (ix2 r m) = sqd X0 X1 (rowOf k r) m := by
  unfold chunkAt chunkOf chunkInto sliceAt
  refine (matmul_plain_zero_apply 128 8 4096 none _ _ r m).trans ?_
  have hs : ∀ c : Fin 8, extractStridedSlice S128x8 ![128 * k.val, 0] (k0_pay3 X0) (slices_chunk k) (ix2 r c)
      = k0_pay3 X0 (ix2 (rowOf k r) c) := fun c =>
    slice2_axis0_apply (n0 := 4096) (n1 := 8) (m := 128) (128 * k.val) (k0_pay3 X0) (slices_chunk k) r c (rowOf k r) rfl
  rw [Fin.sum_univ_eight]
  simp only [hs, lhs_c0, lhs_c1, lhs_c2, lhs_c3, lhs_c4, lhs_c5, lhs_c6, lhs_c7,
    rhs_r0, rhs_r1, rhs_r2, rhs_r3, rhs_r4, rhs_r5, rhs_r6, rhs_r7]
  -- real witnesses for the six coordinates
  choose p hp using h0
  choose t ht using h1
  have hP : ∀ d : Fin 3, coord X0 (rowOf k r) d = ((p (ix3 (0 : Fin 1) (rowOf k r) d) : ℝ) : EReal) := fun d => hp _
  have hT : ∀ d : Fin 3, coord X1 m d = ((t (ix3 (0 : Fin 1) m d) : ℝ) : EReal) := fun d => ht _
  unfold sqd sqNorm
  simp only [Fin.sum_univ_three, hP, hT]
  simp only [← EReal.coe_mul, ← EReal.coe_add]
  exact Cert.Chamfer.sqdist_expand (fun d => p (ix3 (0 : Fin 1) (rowOf k r) d)) (fun d => t (ix3 (0 : Fin 1) m d)) _ _

end Cert.KernelIdeal.Chamfer

end
-- ==== Proof.LibTileLayout.lean ====
/-
  Readings, at an index written by its coordinates, of the operations that turn a matrix `[a, b]` of pairwise
  values into its row minima and its column minima, and of one more keepdims cast:
  • a column `[a, 1]` cast to the vector `[a]` reads, at `i`, the column at `(i, u)` (the unit coordinate `u` is
    whatever the caller writes: there is only one);
  • the f32 word `0x7F800000` denotes `⊤` on the extended reals, the value a minimum starts from;
  • a minimum reduction over the LAST axis of a matrix, started from a word that denotes `⊤`, read at row `p`, is the
    infimum of that row's `b` entries; over the FIRST axis, read at column `c`, the infimum of that column's `a`
    entries. The reduction folds `min` over the entries in some order; `min` commutes and associates, so the fold
    is the fold over the finite set of the reduced coordinate, which from `⊤` is that set's infimum;
  • the factors of a tile of pairwise products: for `v : [a, n]` and `w : [b, n]`, column `d` of `v` spread along the
    rows of `[a, b]` reads `v (p, d)` at `(p, c)`, column `d` of `w` turned into a row and spread along the columns
    reads `w (c, d)`; and a last-axis sum of `[a, n]` spread the first way reads the sum of row `p`, a last-axis sum
    of `[b, n]` spread the second way the sum of row `c`.
-/
import Idealize.ShloMosaic.Lib.ValueLayout
import Idealize.ShloMosaic.PureOps.Ideal.Laws
import proofs.«174885_g21801253994783_cont_8to1_138_22_alg».proof.Proof.LibKeepdims

open scoped BigOperators

namespace Cert.LibTileLayout

open Idealize.ShloMosaic Idealize.ShloMosaic.ValueIdx

variable {α : Type}

/-- A column `[a, 1]` cast to the vector `[a]` reads, at `i`, the column at `(i, u)`: both indices sit at row-major
    position `i`. -/
theorem shapeCast_a1_a_apply {a : ℕ} (x : (⟨2, ![a, 1]⟩ : Shape).Idx → α) (h : (⟨2, ![a, 1]⟩ : Shape).ShapeCasts ⟨1, ![a]⟩)
    (i : Fin a) (u : Fin 1) : shapeCast ⟨1, ![a]⟩ x h (ix1 i) = x (ix2 i u) :=
  shapeCast_apply x h _ _ (by
    have hu : u.val = 0 := by omega
    rw [Shape.rowMajor_val_two, Shape.rowMajor_val_one]
    show i.val * 1 + u.val = i.val
    rw [hu, Nat.mul_one, Nat.add_zero])

/-- The f32 word of `+∞` denotes `⊤`. -/
theorem ofBits_posInf_f32 : Ideal.ofBits .f32 0x7F800000#32 = ⊤ := by simp [Ideal.ofBits, Ideal.ieee]

/-- On the extended reals the fold of `min` from `⊤` over all of a finite type is the infimum over it. -/
theorem fold_min_top_eq_inf {ι : Type} [Fintype ι] (f : ι → EReal) :
    (Finset.univ : Finset ι).fold min (⊤ : EReal) f = Finset.univ.inf f := rfl

/-- At the ideal values a float `vector.multi_reduction <minimumf>` over the LAST axis of an `[a, b]` matrix, started
    from a word that denotes `⊤`, read at row `p`, is the infimum of that row's `b` entries. -/
theorem multiReduction_minimumf_lastAxis_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (htop : Ideal.ofBits .f32 acc = ⊤) (p : Fin a) :
    multiReduction .minimumf [1] ⟨1, ![a]⟩ src acc h hφ hacc (ix1 p)
      = (Finset.univ.inf fun k : Fin b => src (ix2 p k) : EReal) := by
  refine (multiReduction_minimumf_eq_fold src acc h hφ hacc (ix1 p)).trans ?_
  refine (h.fold_filter_drop_single FloatOps.minimumf (FloatOps.ofBits .f32 acc) src (ix1 p)).trans ?_
  show (Finset.univ : Finset (Fin b)).fold min (Ideal.ofBits .f32 acc) (fun k => src (h.lift (ix1 p) k)) = _
  rw [htop]
  refine (fold_min_top_eq_inf _).trans (Finset.inf_congr rfl fun k _ => congrArg src ?_)
  funext ax; apply Fin.ext
  match ax with
  | ⟨0, _⟩ => rfl
  | ⟨1, _⟩ => rfl

/-- The same over the FIRST axis: read at column `c`, the infimum of that column's `a` entries. -/
theorem multiReduction_minimumf_firstAxis_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (htop : Ideal.ofBits .f32 acc = ⊤) (c : Fin b) :
    multiReduction .minimumf [0] ⟨1, ![b]⟩ src acc h hφ hacc (ix1 c)
      = (Finset.univ.inf fun r : Fin a => src (ix2 r c) : EReal) := by
  refine (multiReduction_minimumf_eq_fold src acc h hφ hacc (ix1 c)).trans ?_
  refine (h.fold_filter_drop_single FloatOps.minimumf (FloatOps.ofBits .f32 acc) src (ix1 c)).trans ?_
  show (Finset.univ : Finset (Fin a)).fold min (Ideal.ofBits .f32 acc) (fun r => src (h.lift (ix1 c) r)) = _
  rw [htop]
  refine (fold_min_top_eq_inf _).trans (Finset.inf_congr rfl fun r _ => congrArg src ?_)
  funext ax; apply Fin.ext
  match ax with
  | ⟨0, _⟩ => rfl
  | ⟨1, _⟩ => rfl

/-! ## A factor of a pairwise product, and a squared norm, spread over the tile

For two matrices of points, `v : [a, n]` (a row per point of the tile) and `w : [b, n]` (a row per point of the cloud), the
`[a, b]` tile of products of coordinate `d` is built from column `d` of `v` spread along the rows and column `d` of
`w`, turned into a row, spread along the columns; the squared norms likewise from a last-axis sum. -/

/-- Column `d` of `v : [a, n]`, cut out as `[a, 1]` and broadcast to `[a, b]`, reads at `(p, c)` the entry `v (p, d)`. -/
theorem broadcastTo_sliceCol_apply {a b n : ℕ} (d : ℕ) (v : (⟨2, ![a, n]⟩ : Shape).Idx → α)
    (hs : (⟨2, ![a, n]⟩ : Shape).Slices ![0, d] ⟨2, ![a, 1]⟩) (hb : (⟨2, ![a, 1]⟩ : Shape).Broadcasts ⟨2, ![a, b]⟩)
    (p : Fin a) (c : Fin b) (k : Fin n) (hk : k.val = d) :
    broadcastTo ⟨2, ![a, b]⟩ (extractStridedSlice ⟨2, ![a, 1]⟩ ![0, d] v hs) hb (ix2 p c) = v (ix2 p k) :=
  (Cert.LibKeepdims.broadcastTo_a1_ab_apply _ hb p c (0 : Fin 1)).trans
    (slice2_axis1_apply d v hs p (0 : Fin 1) k (by rw [hk]; rfl))

/-- Column `d` of `w : [b, n]`, cut out as `[b, 1]`, cast to the vector `[b]`, then to the row `[1, b]`, and broadcast to
    `[a, b]`, reads at `(p, c)` the entry `w (c, d)`. -/
theorem broadcastTo_sliceCol_row_apply {a b n : ℕ} (d : ℕ) (w : (⟨2, ![b, n]⟩ : Shape).Idx → α)
    (hs : (⟨2, ![b, n]⟩ : Shape).Slices ![0, d] ⟨2, ![b, 1]⟩) (hc1 : (⟨2, ![b, 1]⟩ : Shape).ShapeCasts ⟨1, ![b]⟩)
    (hc2 : (⟨1, ![b]⟩ : Shape).ShapeCasts ⟨2, ![1, b]⟩) (hb : (⟨2, ![1, b]⟩ : Shape).Broadcasts ⟨2, ![a, b]⟩)
    (p : Fin a) (c : Fin b) (k : Fin n) (hk : k.val = d) :
    broadcastTo ⟨2, ![a, b]⟩ (shapeCast ⟨2, ![1, b]⟩ (shapeCast ⟨1, ![b]⟩ (extractStridedSlice ⟨2, ![b, 1]⟩ ![0, d] w hs) hc1) hc2) hb
      (ix2 p c) = w (ix2 c k) :=
  (broadcastTo_1b_ab_apply _ hb p c).trans <|
    (shapeCast_a_1a_apply _ hc2 (0 : Fin 1) c).trans <|
      (shapeCast_a1_a_apply _ hc1 c (0 : Fin 1)).trans
        (slice2_axis1_apply d w hs c (0 : Fin 1) k (by rw [hk]; rfl))

/-- The last-axis sum of `m : [a, n]`, as the column `[a, 1]`, broadcast to `[a, b]`, reads at `(p, c)` the sum of row `p`. -/
theorem broadcastTo_rowSum_apply {a b n : ℕ} (m : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ m acc h hφ hacc) hc) hb (ix2 p c)
      = ∑ k : Fin n, m (ix2 p k) :=
  (Cert.LibKeepdims.broadcastTo_a1_ab_apply _ hb p c (0 : Fin 1)).trans <|
    (Cert.LibKeepdims.shapeCast_a_a1_apply _ hc p (0 : Fin 1)).trans
      (Cert.LibKeepdims.multiReduction_add_lastAxis_apply m acc h hφ hacc p)

/-- The last-axis sum of `m : [b, n]`, as the row `[1, b]`, broadcast to `[a, b]`, reads at `(p, c)` the sum of row `c`. -/
theorem broadcastTo_rowSum_row_apply {a b n : ℕ} (m : FVec Ideal ⟨2, ![b, n]⟩ .f32) (acc : BitVec 32)
    (h : (⟨2, ![b, n]⟩ : Shape).Reduces [1] ⟨1, ![b]⟩) (hφ : FKind.Formats .f32) (hacc : acc = FKind.add.neutral .f32 hφ)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ (multiReduction .add [1] ⟨1, ![b]⟩ m acc h hφ hacc) hc) hb (ix2 p c)
      = ∑ k : Fin n, m (ix2 c k) :=
  (broadcastTo_1b_ab_apply _ hb p c).trans <|
    (shapeCast_a_1a_apply _ hc (0 : Fin 1) c).trans
      (Cert.LibKeepdims.multiReduction_add_lastAxis_apply m acc h hφ hacc c)

end Cert.LibTileLayout
-- ==== Proof.LibRank3.lean ====
/-
  Rank-3 arrays read at coordinates: the layout operations a kernel uses to form an outer combination of two
  matrices and to fold the two leading axes into one.

  An [a, b, c] array and the [a·b, c] matrix with the same row-major order hold the same numbers: entry (p, q, e) of
  the one is entry (p·b + q, e) of the other (`flat` is that row). A matrix [a, c] viewed as [a, 1, c], a matrix
  [b, c] viewed as [1, b, c] and a vector [c] viewed as [1, 1, c] keep their entries; spread over [a, b, c] they
  repeat them along the unit axes. A sum over the last axis of an [a, b, c] array, at (p, q), is the sum over e of
  the entries (p, q, e).
-/
import Idealize.ShloMosaic.Lib.ValueLayout
import Idealize.ShloMosaic.Lib.Pipeline.Value
import Idealize.ShloMosaic.Lib.ValueIdx
import Idealize.ShloMosaic.PureOps.Ideal.Laws

noncomputable section

namespace Cert.LibRank3

open Idealize.ShloMosaic Idealize.ShloMosaic.ValueIdx

variable {α : Type}

/-- The row of the [n, c] matrix, n = a·b, that holds the entries (p, q, ·) of an [a, b, c] array. -/
def flat {a b : ℕ} (n : ℕ) (hn : n = a * b) (p : Fin a) (q : Fin b) : Fin n :=
  ⟨p.val * b + q.val, by
    subst hn
    calc p.val * b + q.val < p.val * b + b := Nat.add_lt_add_left q.isLt _
      _ = (p.val + 1) * b := (Nat.succ_mul _ _).symm
      _ ≤ a * b := Nat.mul_le_mul_right b p.isLt⟩

theorem flat_val {a b : ℕ} (n : ℕ) (hn : n = a * b) (p : Fin a) (q : Fin b) : (flat n hn p q).val = p.val * b + q.val := rfl

/-- An [a, b, c] array folded to [n, c], n = a·b: row p·b + q holds the entries (p, q, ·). -/
theorem cast_abc_nc {a b c : ℕ} (n : ℕ) (hn : n = a * b) (x : (⟨3, ![a, b, c]⟩ : Shape).Idx → α)
    (h : (⟨3, ![a, b, c]⟩ : Shape).ShapeCasts ⟨2, ![n, c]⟩) (p : Fin a) (q : Fin b) (e : Fin c) :
    shapeCast ⟨2, ![n, c]⟩ x h (ix2 (flat n hn p q) e) = x (ix3 p q e) :=
  shapeCast_apply x h _ _ (by
    rw [Shape.rowMajor_val_three, Shape.rowMajor_val_two]
    rfl)

/-- An [n, c] matrix, n = a·b, unfolded to [a, b, c]: entry (p, q, e) is entry (p·b + q, e). -/
theorem cast_nc_abc {a b c : ℕ} (n : ℕ) (hn : n = a * b) (x : (⟨2, ![n, c]⟩ : Shape).Idx → α)
    (h : (⟨2, ![n, c]⟩ : Shape).ShapeCasts ⟨3, ![a, b, c]⟩) (p : Fin a) (q : Fin b) (e : Fin c) :
    shapeCast ⟨3, ![a, b, c]⟩ x h (ix3 p q e) = x (ix2 (flat n hn p q) e) :=
  shapeCast_apply x h _ _ (by
    rw [Shape.rowMajor_val_three, Shape.rowMajor_val_two]
    rfl)

/-- A matrix [a, c] viewed as [a, 1, c] keeps its entries. -/
theorem cast_ac_a1c {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    rw [Shape.rowMajor_val_three, Shape.rowMajor_val_two]
    show p.val * c + e.val = (p.val * 1 + u.val) * c + e.val
    have hu : u.val = 0 := by have := u.isLt; omega
    rw [hu, Nat.mul_one, Nat.add_zero])

/-- A vector [c] viewed as [1, 1, c] keeps its entries. -/
theorem cast_c_11c {c : ℕ} (x : (⟨1, ![c]⟩ : Shape).Idx → α)
    (h : (⟨1, ![c]⟩ : Shape).ShapeCasts ⟨3, ![1, 1, c]⟩) (u u' : Fin 1) (e : Fin c) :
    shapeCast ⟨3, ![1, 1, c]⟩ x h (ix3 u u' e) = x (ix1 e) :=
  shapeCast_apply x h _ _ (by
    rw [Shape.rowMajor_val_three, Shape.rowMajor_val_one]
    show e.val = (u.val * 1 + u'.val) * c + e.val
    have hu : u.val = 0 := by have := u.isLt; omega
    have hu' : u'.val = 0 := by have := u'.isLt; omega
    simp only [hu, hu', Nat.zero_mul, Nat.zero_add, Nat.mul_one, Nat.add_zero])

/-- [a, 1, c] spread over [a, b, c]: the middle coordinate is forgotten. -/
theorem bcast_a1c_abc {a b c : ℕ} (v : (⟨3, ![a, 1, c]⟩ : Shape).Idx → α)
    (h : (⟨3, ![a, 1, c]⟩ : Shape).Broadcasts ⟨3, ![a, b, c]⟩) (p : Fin a) (q : Fin b) (e : Fin c) (u : Fin 1) :
    broadcastTo ⟨3, ![a, b, c]⟩ v h (ix3 p q e) = v (ix3 p u e) := by
  refine broadcastTo_apply v h (ix3 p q e) (ix3 p u e) fun ax => ?_
  match ax with
  | ⟨0, _⟩ =>
    show p.val = if a = 1 then 0 else p.val
    split
    · have := p.isLt; omega
    · rfl
  | ⟨1, _⟩ =>
    show u.val = if (1 : ℕ) = 1 then 0 else q.val
    rw [if_pos rfl]; have := u.isLt; omega
  | ⟨2, _⟩ =>
    show e.val = if c = 1 then 0 else e.val
    split
    · have := e.isLt; omega
    · rfl

/-- [1, b, c] spread over [a, b, c]: the leading coordinate is forgotten. -/
theorem bcast_1bc_abc {a b c : ℕ} (v : (⟨3, ![1, b, c]⟩ : Shape).Idx → α)
    (h : (⟨3, ![1, b, c]⟩ : Shape).Broadcasts ⟨3, ![a, b, c]⟩) (p : Fin a) (q : Fin b) (e : Fin c) (u : Fin 1) :
    broadcastTo ⟨3, ![a, b, c]⟩ v h (ix3 p q e) = v (ix3 u q e) := by
  refine broadcastTo_apply v h (ix3 p q e) (ix3 u q e) fun ax => ?_
  match ax with
  | ⟨0, _⟩ =>
    show u.val = if (1 : ℕ) = 1 then 0 else p.val
    rw [if_pos rfl]; have := u.isLt; omega
  | ⟨1, _⟩ =>
    show q.val = if b = 1 then 0 else q.val
    split
    · have := q.isLt; omega
    · rfl
  | ⟨2, _⟩ =>
    show e.val = if c = 1 then 0 else e.val
    split
    · have := e.isLt; omega
    · rfl

/-- [1, 1, c] spread over [a, b, c]: both leading coordinates are forgotten. -/
theorem bcast_11c_abc {a b c : ℕ} (v : (⟨3, ![1, 1, c]⟩ : Shape).Idx → α)
    (h : (⟨3, ![1, 1, c]⟩ : Shape).Broadcasts ⟨3, ![a, b, c]⟩) (p : Fin a) (q : Fin b) (e : Fin c) (u u' : Fin 1) :
    broadcastTo ⟨3, ![a, b, c]⟩ v h (ix3 p q e) = v (ix3 u u' e) := by
  refine broadcastTo_apply v h (ix3 p q e) (ix3 u u' e) fun ax => ?_
  match ax with
  | ⟨0, _⟩ =>
    show u.val = if (1 : ℕ) = 1 then 0 else p.val
    rw [if_pos rfl]; have := u.isLt; omega
  | ⟨1, _⟩ =>
    show u'.val = if (1 : ℕ) = 1 then 0 else q.val
    rw [if_pos rfl]; have := u'.isLt; omega
  | ⟨2, _⟩ =>
    show e.val = if c = 1 then 0 else e.val
    split
    · have := e.isLt; omega
    · rfl

/-- The source index of a last-axis reduction of an [a, b, c] array over the result index (p, q), at coordinate k. -/
theorem lift_last {a b c : ℕ} (h : (⟨3, ![a, b, c]⟩ : Shape).Reduces [2] ⟨2, ![a, b]⟩) (p : Fin a) (q : Fin b) (k : Fin c) :
    h.lift (ix2 p q) k = ix3 p q k :=
  funext fun d => Fin.ext (by
    match d with
    | ⟨0, _⟩ => rfl
    | ⟨1, _⟩ => rfl
    | ⟨2, _⟩ => rfl)

/-- At the ideal values a float sum over the last axis of an [a, b, c] array, at (p, q): Σ_k x(p, q, k). -/
theorem lane_sum {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  exact Finset.sum_congr rfl fun k _ => congrArg src (lift_last h p q k)

end Cert.LibRank3

end
-- ==== Proof.LibMinFirst3.lean ====
/-
  At the ideal values a float minimum reduction over the FIRST axis of a rank-3 array [a, b, c], started from a word that
  denotes +infinity and read at (q, e), is the infimum over g of the entries (g, q, e). Any extents.
-/
import Idealize.ShloMosaic.Lib.ValueLayout
import Idealize.ShloMosaic.Lib.ValueIdx
import Idealize.ShloMosaic.PureOps.Ideal.Laws

noncomputable section

namespace Cert.LibMinFirst3

open Idealize.ShloMosaic Idealize.ShloMosaic.ValueIdx

/-- A minimumf multi_reduction over axis 0 of an [a, b, c] array at Ideal, read at (q, e): the infimum of the a entries
    (g, q, e). -/
theorem multiReduction_minimumf_firstAxis3_apply {a b c : ℕ} (src : FVec Ideal ⟨3, ![a, b, c]⟩ .f32) (acc : BitVec 32)
    (h : (⟨3, ![a, b, c]⟩ : Shape).Reduces [0] ⟨2, ![b, c]⟩) (hφ : FKind.Formats .f32)
    (hacc : acc = FKind.minimumf.neutral .f32 hφ) (htop : Ideal.ofBits .f32 acc = ⊤) (q : Fin b) (e : Fin c) :
    multiReduction .minimumf [0] ⟨2, ![b, c]⟩ src acc h hφ hacc (ix2 q e)
      = (Finset.univ.inf fun g : Fin a => src (ix3 g q e) : EReal) := by
  refine (multiReduction_minimumf_eq_fold src acc h hφ hacc (ix2 q e)).trans ?_
  refine (h.fold_filter_drop_single FloatOps.minimumf (FloatOps.ofBits .f32 acc) src (ix2 q e)).trans ?_
  show (Finset.univ : Finset (Fin a)).fold min (Ideal.ofBits .f32 acc) (fun g => src (h.lift (ix2 q e) g)) = _
  rw [htop]
  refine Eq.trans (show (Finset.univ : Finset (Fin a)).fold min (⊤ : EReal) _ = Finset.univ.inf _ from rfl)
    (Finset.inf_congr rfl fun g _ => congrArg src ?_)
  funext ax; apply Fin.ext
  match ax with
  | ⟨0, _⟩ => rfl
  | ⟨1, _⟩ => rfl
  | ⟨2, _⟩ => rfl

end Cert.LibMinFirst3

end
-- ==== Proof.KReads.lean ====
/-
  The steps of the body read at the exact values, for any chunk matrix f:
    the row part is  sum over the 128 rows r of  max (inf over the columns m of f(r, m)) 0;
    the column part at (j, m) is  inf over the 16 groups g of f(8 g + j, m);
    the finish of 8 partial column minima M is  sum over the columns m of  inf over j of  max (M(j, m)) 0;
    the accumulate step adds  R / 32768 + C / 32768  to the previous contents;
  and the two running folds read entry by entry. None of this needs the entries to be finite.
-/
import proofs.«174885_g21801253994783_cont_8to1_138_22_alg».proof.Proof.KChunk
import proofs.«174885_g21801253994783_cont_8to1_138_22_alg».proof.Proof.Consts
import proofs.«174885_g21801253994783_cont_8to1_138_22_alg».proof.Proof.LibKeepdims
import proofs.«174885_g21801253994783_cont_8to1_138_22_alg».proof.Proof.LibAxisSums
import proofs.«174885_g21801253994783_cont_8to1_138_22_alg».proof.Proof.LibTileLayout
import proofs.«174885_g21801253994783_cont_8to1_138_22_alg».proof.Proof.LibRank3
import proofs.«174885_g21801253994783_cont_8to1_138_22_alg».proof.Proof.LibMinFirst3
import Idealize.ShloMosaic.Lib.Pipeline.Value
import Idealize.ShloMosaic.Lib.ValueIdx
import Idealize.ShloMosaic.Lib.ValueLayout

noncomputable section

namespace Cert.KernelIdeal.Chamfer

open Idealize.ShloMosaic Idealize.ShloMosaic.ValueIdx Cert.KernelIdeal
open Cert.Chamfer.Consts

variable [Cert.KernelIdeal.Facts]

/-! ### The row part -/

theorem rowMin_apply (f : FVec Ideal S128x4096 .f32) (r : Fin 128) (u : Fin 1) :
    rowMin f (ix2 r u) = Finset.univ.inf fun m : Fin 4096 => f (ix2 r m) := by
  unfold rowMin
  refine (Cert.LibKeepdims.shapeCast_a_a1_apply (a := 128) _ _ r u).trans ?_
  exact Cert.LibTileLayout.multiReduction_minimumf_lastAxis_apply (a := 128) (b := 4096) f _ _ _ _ ofBits_top r

theorem rowClamp_apply (f : FVec Ideal S128x4096 .f32) (r : Fin 128) (u : Fin 1) :
    rowClamp f (ix2 r u) = max (Finset.univ.inf fun m : Fin 4096 => f (ix2 r m)) 0 := by
  unfold rowClamp zeroCol
  rw [maximumf_apply, rowMin_apply, broadcast_apply]
  exact congrArg (max _) ofBits_zero

theorem rowSum_apply (c : FVec Ideal S128x1 .f32) (u u' : Fin 1) : rowSum c (ix2 u u') = ∑ r : Fin 128, c (ix2 r u') := by
  unfold rowSum
  refine (Cert.LibKeepdims.shapeCast_a_a1_apply (a := 1) _ _ u u').trans ?_
  have hu : u = u' := Subsingleton.elim _ _
  subst hu
  exact Cert.LibAxisSums.multiReduction_add_firstAxis_apply (a := 128) (b := 1) c _ _ _ _ u

theorem rowPart_apply (f : FVec Ideal S128x4096 .f32) (u u' : Fin 1) :
    rowPart f (ix2 u u') = ∑ r : Fin 128, max (Finset.univ.inf fun m : Fin 4096 => f (ix2 r m)) 0 := by
  unfold rowPart
  rw [rowSum_apply]
  exact Finset.sum_congr rfl fun r _ => rowClamp_apply f r u'

/-! ### The column part -/

/-- Row 8 g + j of a chunk: group g, position j. -/
def grp (g : Fin 16) (j : Fin 8) : Fin 128 := Cert.LibRank3.flat 128 rfl g j

theorem colPart_apply (f : FVec Ideal S128x4096 .f32) (j : Fin 8) (m : Fin 4096) :
    colPart f (ix2 j m) = Finset.univ.inf fun g : Fin 16 => f (ix2 (grp g j) m) := by
  unfold colPart
  refine (Cert.LibMinFirst3.multiReduction_minimumf_firstAxis3_apply (a := 16) (b := 8) (c := 4096) _ _ _ _ _ ofBits_top j m).trans ?_
  exact Finset.inf_congr rfl fun g _ => Cert.LibRank3.cast_nc_abc (a := 16) (b := 8) (c := 4096) 128 rfl f _ g j m

theorem colFinish_apply (M : FVec Ideal S8x4096 .f32) (u u' : Fin 1) :
    colFinish M (ix2 u u') = ∑ m : Fin 4096, Finset.univ.inf fun j : Fin 8 => max (M (ix2 j m)) 0 := by
  unfold colFinish
  refine (Cert.LibKeepdims.shapeCast_a_a1_apply (a := 1) _ _ u u').trans ?_
  refine (Cert.LibKeepdims.multiReduction_add_lastAxis_apply (a := 1) (b := 4096) _ _ _ _ _ u).trans ?_
  refine Finset.sum_congr rfl fun m _ => ?_
  refine (shapeCast_a_1a_apply (a := 4096) _ _ u m).trans ?_
  refine (Cert.LibTileLayout.multiReduction_minimumf_firstAxis_apply (a := 8) (b := 4096) _ _ _ _ _ ofBits_top m).trans ?_
  refine Finset.inf_congr rfl fun j _ => ?_
  rw [maximumf_apply, broadcast_apply]
  exact congrArg (max _) ofBits_zero

/-! ### The accumulate step and the two folds -/

theorem accumulate_apply (prev : Vec Ideal S1x1 .f32) (R C : FVec Ideal S1x1 .f32) (i : S1x1.Idx) :
    accumulate prev R C i = prev i + (R i * ((1 / 32768 : ℝ) : EReal) + C i * ((1 / 32768 : ℝ) : EReal)) := by
  unfold accumulate
  rw [addf_apply, addf_apply, mulf_apply, mulf_apply, broadcast_apply, shapeCast_self]
  exact congrArg (fun w : EReal => prev i + (R i * w + C i * w)) ofBits_weight

theorem rowAcc_apply (fs : List (FVec Ideal S128x4096 .f32)) (a : FVec Ideal S1x1 .f32) (i : S1x1.Idx) :
    rowAcc a fs i = a i + (fs.map fun f => rowPart f i).sum := by
  induction fs generalizing a with
  | nil => simp [rowAcc]
  | cons f fs ih =>
    show rowAcc (addf a (rowPart f)) fs i = _
    rw [ih, addf_apply, List.map_cons, List.sum_cons, add_assoc]

theorem colAcc_apply (fs : List (FVec Ideal S128x4096 .f32)) (a : FVec Ideal S8x4096 .f32) (i : S8x4096.Idx) :
    colAcc a fs i = (fs.map fun f => colPart f i).foldl min (a i) := by
  induction fs generalizing a with
  | nil => rfl
  | cons f fs ih =>
    show colAcc (minimumf a (colPart f)) fs i = _
    rw [ih, minimumf_apply, List.map_cons, List.foldl_cons]

end Cert.KernelIdeal.Chamfer

end
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.SpecLoss.lean ====
/-
  The laws that join the two arrangements of the loss, over the extended reals. None needs a finite value; where a
  product is moved across a sum the terms are nonnegative, which is enough there.
    - Clamping at zero passes through a finite infimum.
    - A left fold of min over a list, started at the top, is the infimum of the list's entries.
    - The 4096 points are 32 chunks of 128 (for the sums over rows), and 32 chunks of 16 groups of 8 (for the minima over
      columns): regrouping a sum, or an infimum, changes nothing.
    - Weighting both directional sums by 1/32768 is dividing each by 16384, adding, and halving.
-/
import Mathlib.Data.EReal.Operations
import Mathlib.Data.EReal.Inv
import Mathlib.Algebra.BigOperators.Fin
import Mathlib.Data.Fintype.Lattice
import Mathlib.Order.CompleteLattice.Finset
import Mathlib.Tactic.NormNum
import proofs.«174885_g21801253994783_cont_8to1_138_22_alg».proof.Proof.LibTileSum

noncomputable section

namespace Cert.Chamfer

open Finset

/-- Clamping passes through a finite infimum. -/
theorem max_inf_zero {ι : Type*} [Fintype ι] (f : ι → EReal) : max (univ.inf f) 0 = univ.inf fun i => max (f i) 0 :=
  Finset.inf_sup_distrib_right univ f 0

/-- A bound below a left fold of min is a bound below the start and below every entry. -/
theorem le_foldl_min_iff (l : List EReal) (a x : EReal) : x ≤ l.foldl min a ↔ x ≤ a ∧ ∀ y ∈ l, x ≤ y := by
  induction l generalizing a with
  | nil => simp
  | cons b l ih =>
    rw [List.foldl_cons, ih, le_min_iff]
    constructor
    · rintro ⟨⟨h1, h2⟩, h3⟩
      exact ⟨h1, fun y hy => by rcases List.mem_cons.mp hy with rfl | hy; exacts [h2, h3 y hy]⟩
    · rintro ⟨h1, h2⟩
      exact ⟨⟨h1, h2 b List.mem_cons_self⟩, fun y hy => h2 y (List.mem_cons_of_mem _ hy)⟩

/-- The left fold of min from the top over the images of a list of n entries is the infimum over the n positions. -/
theorem foldl_min_top_map {α : Type*} (l : List α) (g : α → EReal) (n : ℕ) (hn : l.length = n) :
    (l.map g).foldl min ⊤ = univ.inf fun k : Fin n => g (l[k.val]'(hn ▸ k.isLt)) := by
  subst hn
  refine eq_of_forall_le_iff fun x => ?_
  rw [le_foldl_min_iff, Finset.le_inf_iff]
  constructor
  · rintro ⟨-, h⟩ k -
    exact h _ (List.mem_map.mpr ⟨_, List.getElem_mem k.isLt, rfl⟩)
  · intro h
    refine ⟨le_top, fun y hy => ?_⟩
    obtain ⟨a, ha, rfl⟩ := List.mem_map.mp hy
    obtain ⟨i, hi, rfl⟩ := List.getElem_of_mem ha
    exact h ⟨i, hi⟩ (mem_univ _)

/-- The sum over the images of a list of n entries is the sum over the n positions. -/
theorem sum_map_eq {α M : Type*} [AddCommMonoid M] (l : List α) (g : α → M) (n : ℕ) (hn : l.length = n) :
    (l.map g).sum = ∑ k : Fin n, g (l[k.val]'(hn ▸ k.isLt)) := by
  subst hn
  exact (Fin.sum_univ_fun_getElem l g).symm

/-- The rows are 32 chunks of 128: a sum over chunks of sums inside each chunk is the sum over all rows. -/
theorem rows_regroup {M : Type*} [AddCommMonoid M] (h : Fin 4096 → M) (row : Fin 32 → Fin 128 → Fin 4096)
    (hrow : ∀ k r, (row k r).val = 128 * k.val + r.val) : ∑ k, ∑ r, h (row k r) = ∑ n, h n := by
  rw [TileSum.sum_axis (A := 32) (a := 128) (R := 4096) rfl h]
  refine sum_congr rfl fun k _ => sum_congr rfl fun r _ => congrArg h (Fin.ext ?_)
  rw [hrow, TileSum.idx_val, Nat.mul_comm]

/-- The rows are 32 chunks of 16 groups of 8: an infimum over positions, chunks and groups is the infimum over all rows. -/
theorem cols_regroup (h : Fin 4096 → EReal) (enc : Fin 32 → Fin 16 → Fin 8 → Fin 4096)
    (henc : ∀ k g j, (enc k g j).val = 128 * k.val + (g.val * 8 + j.val)) :
    (univ.inf fun j : Fin 8 => univ.inf fun k : Fin 32 => univ.inf fun g : Fin 16 => h (enc k g j)) = univ.inf h := by
  refine le_antisymm (Finset.le_inf fun n _ => ?_) (Finset.le_inf fun j _ => Finset.le_inf fun k _ => Finset.le_inf fun g _ =>
    Finset.inf_le (mem_univ _))
  have hn := n.isLt
  let k : Fin 32 := ⟨n.val / 128, by omega⟩
  let g : Fin 16 := ⟨n.val % 128 / 8, by omega⟩
  let j : Fin 8 := ⟨n.val % 8, by omega⟩
  have e : enc k g j = n := Fin.ext (by rw [henc]; show 128 * (n.val / 128) + (n.val % 128 / 8 * 8 + n.val % 8) = n.val; omega)
  calc (univ.inf fun j : Fin 8 => univ.inf fun k : Fin 32 => univ.inf fun g : Fin 16 => h (enc k g j))
      ≤ univ.inf fun k : Fin 32 => univ.inf fun g : Fin 16 => h (enc k g j) := Finset.inf_le (mem_univ j)
    _ ≤ univ.inf fun g : Fin 16 => h (enc k g j) := Finset.inf_le (mem_univ k)
    _ ≤ h (enc k g j) := Finset.inf_le (mem_univ g)
    _ = h n := congrArg h e

/-- A nonnegative family's sum times a constant is the sum of the products. -/
theorem sum_mul_of_nonneg {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [sum_insert ha, sum_insert ha,
      EReal.right_distrib_of_nonneg (hf a (mem_insert_self a s))
        (sum_nonneg fun i hi => hf i (mem_insert_of_mem hi)),
      ih fun i hi => hf i (mem_insert_of_mem hi)]

/-- Dividing both directional sums by 16384, adding and halving is weighting each by 1/32768. -/
theorem scale_law (A B : EReal) (hA : 0 ≤ A) (hB : 0 ≤ B) :
    (A * ((1 / 16384 : ℝ) : EReal) + B * ((1 / 16384 : ℝ) : EReal)) * ((1 / 2 : ℝ) : EReal)
      = A * ((1 / 32768 : ℝ) : EReal) + B * ((1 / 32768 : ℝ) : EReal) := by
  have hc : (0 : EReal) ≤ ((1 / 16384 : ℝ) : EReal) := EReal.coe_nonneg.mpr (by norm_num)
  rw [EReal.right_distrib_of_nonneg (mul_nonneg hA hc) (mul_nonneg hB hc), mul_assoc, mul_assoc, ← EReal.coe_mul]
  norm_num

end Cert.Chamfer

end
-- ==== Proof.KBlock.lean ====
/-
  One grid point. With d(n, m) = max (|p_n|^2 + |t_m|^2 - 2 <p_n, t_m>) 0 the clamped squared distance between point n
  of the first block and point m of the second, the value the body stores is the block's previous contents plus
      (sum over n of min over m of d(n, m)) / 32768 + (sum over m of min over n of d(n, m)) / 32768.
  The body reaches the first sum chunk by chunk and clamps the row minimum after taking it; it reaches the second through
  partial minima over rows 8 g + j of each chunk, clamped and reduced over j at the end. Clamping passes through the minima,
  and the chunks and groups together enumerate each row once.
-/
import proofs.«174885_g21801253994783_cont_8to1_138_22_alg».proof.Proof.KEntry
import proofs.«174885_g21801253994783_cont_8to1_138_22_alg».proof.Proof.KReads
import proofs.«174885_g21801253994783_cont_8to1_138_22_alg».proof.Proof.SpecLoss

noncomputable section

namespace Cert.KernelIdeal.Chamfer

open Idealize.ShloMosaic Idealize.ShloMosaic.ValueIdx Cert.KernelIdeal Cert.KernelIdeal.Gen
open Cert.Chamfer Finset

/-- The clamped squared distance. -/
def dist (X0 X1 : Vec Ideal S1x4096x3 .f32) (n m : Fin 4096) : EReal := max (sqd X0 X1 n m) 0

/-- The loss of one pair of blocks: both directional sums of nearest distances, each weighted by 1/32768. -/
def blockLoss (X0 X1 : Vec Ideal S1x4096x3 .f32) : EReal :=
  (∑ n, univ.inf fun m => dist X0 X1 n m) * ((1 / 32768 : ℝ) : EReal)
    + (∑ m, univ.inf fun n => dist X0 X1 n m) * ((1 / 32768 : ℝ) : EReal)

section
variable (X0 X1 : Vec Ideal S1x4096x3 .f32) (h0 : IsReal X0) (h1 : IsReal X1)
include h0 h1

/-- Chunk k of the list, at an entry, is the squared distance. -/
theorem chunks_entry (k : Fin 32) (r : Fin 128) (m : Fin 4096) :
    ((chunks X0 X1)[k.val]'(by rw [chunks_length]; exact k.isLt)) (ix2 r m) = sqd X0 X1 (rowOf k r) m := by
  rw [chunks_get]; exact chunk_entry X0 X1 h0 h1 k r m

/-- The row parts of all chunks add up to the sum over all points of the nearest clamped distance. -/
theorem rows_total (u u' : Fin 1) :
    rowAcc (rowPart (k0_pay5 X0 X1)) (chunks X0 X1).tail (ix2 u u') = ∑ n, univ.inf fun m => dist X0 X1 n m := by
  rw [rowAcc_apply, ← List.sum_cons, ← List.map_cons (f := fun f => rowPart f (ix2 u u')),
    show k0_pay5 X0 X1 :: (chunks X0 X1).tail = chunks X0 X1 from rfl,
    sum_map_eq (chunks X0 X1) (fun f => rowPart f (ix2 u u')) 32 (chunks_length X0 X1)]
  rw [← rows_regroup (fun n => univ.inf fun m => dist X0 X1 n m) rowOf (fun _ _ => rfl)]
  refine sum_congr rfl fun k _ => ?_
  rw [rowPart_apply]
  refine sum_congr rfl fun r _ => ?_
  rw [max_inf_zero]
  exact inf_congr rfl fun m _ => congrArg (max · 0) (chunks_entry X0 X1 h0 h1 k r m)

/-- The column parts of all chunks, combined, at (j, m): the minimum over the rows 8 g + j of every chunk. -/
theorem cols_partial (j : Fin 8) (m : Fin 4096) :
    colAcc (colPart (k0_pay5 X0 X1)) (chunks X0 X1).tail (ix2 j m)
      = univ.inf fun k : Fin 32 => univ.inf fun g : Fin 16 => sqd X0 X1 (rowOf k (grp g j)) m := by
  rw [colAcc_apply,
    show ((chunks X0 X1).tail.map fun f => colPart f (ix2 j m)).foldl min (colPart (k0_pay5 X0 X1) (ix2 j m))
        = ((chunks X0 X1).map fun f => colPart f (ix2 j m)).foldl min ⊤ from by
      rw [show chunks X0 X1 = k0_pay5 X0 X1 :: (chunks X0 X1).tail from rfl, List.map_cons, List.foldl_cons, min_top_left]
      rfl,
    foldl_min_top_map (chunks X0 X1) (fun f => colPart f (ix2 j m)) 32 (chunks_length X0 X1)]
  refine inf_congr rfl fun k _ => ?_
  rw [colPart_apply]
  exact inf_congr rfl fun g _ => chunks_entry X0 X1 h0 h1 k (grp g j) m

/-- Finished, they give the sum over all points of the second block of the nearest clamped distance. -/
theorem cols_total (u u' : Fin 1) :
    colFinish (colAcc (colPart (k0_pay5 X0 X1)) (chunks X0 X1).tail) (ix2 u u') = ∑ m, univ.inf fun n => dist X0 X1 n m := by
  rw [colFinish_apply]
  refine sum_congr rfl fun m _ => ?_
  rw [← cols_regroup (fun n => dist X0 X1 n m) (fun k g j => rowOf k (grp g j)) (fun _ _ _ => rfl)]
  refine inf_congr rfl fun j _ => ?_
  rw [cols_partial X0 X1 h0 h1 j m, max_inf_zero]
  exact inf_congr rfl fun k _ => max_inf_zero _

/-- The stored value: the previous contents plus the block's loss. -/
theorem stored_value (prev : Vec Ideal S1x1 .f32) (i : S1x1.Idx) :
    k0_pay1 (rowTotal X0 X1) (colTotal X0 X1) prev i = prev i + blockLoss X0 X1 := by
  obtain ⟨u, u', rfl⟩ : ∃ u u', i = ix2 u u' := ⟨i 0, i 1, eq_ix2 i⟩
  rw [stored_eq, accumulate_apply, rows_total X0 X1 h0 h1, cols_total X0 X1 h0 h1]
  rfl

end

end Cert.KernelIdeal.Chamfer

end
-- ==== Proof.LibRunningTotal.lean ====
/-
  Running totals. A family `f` indexed by `Fin N` in a commutative additive monoid, added up one member at a
  time from the first: the total over the indices `≤ n` starts at `f 0`, takes in `f (n+1)` at step `n+1`, and
  at the last index is the sum of the whole family. This is what an accumulator that is reset at the first
  grid point and increased by one block's contribution at every point holds.
-/
import Mathlib.Algebra.BigOperators.Fin
import Mathlib.Data.Fintype.Basic

namespace RunningTotal

open Finset

variable {M : Type*} [AddCommMonoid M] {N : ℕ}

/-- The total of `f` over the indices `≤ n`. -/
def upTo (f : Fin N → M) (n : ℕ) : M := ∑ t ∈ (univ : Finset (Fin N)).filter (fun t => t.val ≤ n), f t

/-- At the first index the total is that member alone. -/
theorem upTo_zero (f : Fin N → M) (h : 0 < N) : upTo f 0 = f ⟨0, h⟩ := by
  unfold upTo
  have : (univ : Finset (Fin N)).filter (fun t => t.val ≤ 0) = {⟨0, h⟩} := by
    ext t
    simp only [mem_filter, mem_univ, true_and, mem_singleton, Nat.le_zero]
    exact ⟨fun e => Fin.ext e, fun e => by rw [e]⟩
  rw [this, sum_singleton]

/-- One step: the total over the indices `≤ n + 1` is the total over those `≤ n` plus the new member. -/
theorem upTo_succ (f : Fin N → M) (n : ℕ) (h : n + 1 < N) : upTo f (n + 1) = upTo f n + f ⟨n + 1, h⟩ := by
  unfold upTo
  have : (univ : Finset (Fin N)).filter (fun t => t.val ≤ n + 1)
      = insert ⟨n + 1, h⟩ ((univ : Finset (Fin N)).filter (fun t => t.val ≤ n)) := by
    ext t
    simp only [mem_filter, mem_univ, true_and, mem_insert]
    constructor
    · intro e
      rcases Nat.lt_or_ge t.val (n + 1) with e' | e'
      · exact Or.inr (Nat.lt_succ_iff.mp e')
      · exact Or.inl (Fin.ext (Nat.le_antisymm e e'))
    · rintro (e | e)
      · rw [e]
      · exact Nat.le_succ_of_le e
  rw [this, sum_insert, add_comm]
  simp only [mem_filter, mem_univ, true_and, not_le]
  exact Nat.lt_succ_self n

/-- At the last index the total is the sum of the whole family. -/
theorem upTo_last (f : Fin N → M) (n : ℕ) (h : N ≤ n + 1) : upTo f n = ∑ t, f t := by
  unfold upTo
  rw [filter_true_of_mem]
  intro t _
  exact Nat.lt_succ_iff.mp (lt_of_lt_of_le t.isLt h)

end RunningTotal
-- ==== Proof.KRun.lean ====
/-
  The four grid points. The output block is one entry that every point reads and rewrites: the first point stores zero and
  adds its block's loss, each later point adds its own to what it finds. So after point n the entry holds the losses of
  blocks 0 .. n added in order, and after the last point -- the only one after which the block is written back -- the
  sum over all four batches.
-/
import proofs.«174885_g21801253994783_cont_8to1_138_22_alg».proof.Proof.Gen.KernelIdeal.Frame
import proofs.«174885_g21801253994783_cont_8to1_138_22_alg».proof.Proof.KPiece
import proofs.«174885_g21801253994783_cont_8to1_138_22_alg».proof.Proof.KBlock
import proofs.«174885_g21801253994783_cont_8to1_138_22_alg».proof.Proof.LibRunningTotal
import Idealize.ShloMosaic.Lib.Pipeline.Value
import Idealize.ShloMosaic.Lib.StableHlo.Run

set_option maxRecDepth 16384

noncomputable section

namespace Cert.KernelIdeal.Chamfer

open Idealize.ShloMosaic Idealize.ShloMosaic.TcCoe Idealize.ShloMosaic.ValueIdx Idealize.ShloMosaic.StableHlo
open Idealize.SL Idealize.SL.Sem
open Cert.KernelIdeal Cert.KernelIdeal.Gen

variable (m : (ℓ : Loc nD τ sig) → Buf (Elt Ideal) ℓ) (ρ : Dev nD → PrngReg)

/-- Every block either window stages holds real numbers. -/
def BlocksReal (c : Dev nD) : Prop := ∀ t : Fin cfg0.N, IsReal (iblk m c 0 t) ∧ IsReal (iblk m c 1 t)

/-- The loss of the pair of blocks staged at point t. -/
def lossAt (c : Dev nD) (t : Fin cfg0.N) : EReal := blockLoss (iblk m c 0 t) (iblk m c 1 t)

/-- The loss over all grid points. -/
def total (c : Dev nD) : EReal := ∑ t : Fin cfg0.N, lossAt m c t

/-- After point n the output block holds the losses of the points up to n, added up. -/
theorem outs_running (c : Dev nD) (hr : BlocksReal m c) :
    ∀ (n : ℕ) (h : n < cfg0.N), outsAt0 m c n h = fun _ => RunningTotal.upTo (lossAt m c) n
  | 0, h => by
    refine ((outsAt0_A m c ⟨0, h⟩ rfl).trans (out_first (F := Ideal) c _ _ _ _ _ _ _ _ (iblk m c 0 ⟨0, h⟩) (iblk m c 1 ⟨0, h⟩))).trans ?_
    funext i
    rw [stored_value _ _ (hr ⟨0, h⟩).1 (hr ⟨0, h⟩).2, RunningTotal.upTo_zero _ h]
    show Ideal.ofBits .f32 0x00000000#32 + _ = _
    rw [Cert.Chamfer.Consts.ofBits_zero, zero_add]
    rfl
  | n + 1, h => by
    have hN : cfg0.N = 4 := N_0
    have hB : ¬(⟨n + 1, h⟩ : Fin cfg0.N).val % 4 = 0 := by dsimp only; omega
    rw [outsAt0_B m c ⟨n + 1, h⟩ hB, out_later]
    funext i
    rw [stored_value _ _ (hr ⟨n + 1, h⟩).1 (hr ⟨n + 1, h⟩).2, RunningTotal.upTo_succ _ n h]
    show outsAt0 m c n _ i + _ = _
    rw [outs_running c hr n]
    rfl

/-- The output array after the run: its one entry is the total. -/
abbrev result (c : Dev nD) : Buf (Elt Ideal) ((c : Thread nD τ).loc main_v0) := fun _ => total m c

/-- The one write-back, after the last point, writes the total. -/
theorem flushed_eq (c : Dev nD) (hr : BlocksReal m c) (t : Fin cfg0.N) (hf : (cfg0.win 2).flush t = true) :
    (dats m 0 c).flushed 2 t = ((cfg0.win 2).blk t).view.read (Elt Ideal) (result m c) := by
  have hN : cfg0.N = 4 := N_0
  have h3 : t.val = 3 := by have := (flush0_2 t).mp hf; have := t.isLt; omega
  obtain rfl : t = t0_3 := Fin.ext h3
  show (cfg0.win 2).cut (grid0.coords t0_3) ((dats m 0 c).after 2 t0_3) = _
  rw [after0_2, outs_running m c hr, show t0_3.val = 3 from rfl, RunningTotal.upTo_last (lossAt m c) 3 (by rw [hN])]
  rfl

/-- So the output array ends holding the total: the last point's block is the whole array. -/
theorem final (c : Dev nD) (hr : BlocksReal m c) : (dats m 0 c).arrAt 2 cfg0.N = result m c :=
  (dats m 0 c).arrAt_eq_of_cover 2 (result m c) (flushed_eq m c hr) fun i =>
    ⟨t0_3, (flush0_2 t0_3).mpr rfl, by
      show i ∈ ((View.whole main_v0).slice (win0_2.rect t0_3)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_3 0 * win0_2.size 0 ≤ (i 0 : Nat) ∧ (i 0 : Nat) < win0_2.index t0_3 0 * win0_2.size 0 + win0_2.xsize (grid0.coords t0_3) 0
        rw [show win0_2.index t0_3 0 * win0_2.size 0 = 0 from by decide +kernel, show win0_2.xsize (grid0.coords t0_3) 0 = 1 from by decide +kernel]; omega
      | ⟨1, _⟩ =>
        show win0_2.index t0_3 1 * win0_2.size 1 ≤ (i 1 : Nat) ∧ (i 1 : Nat) < win0_2.index t0_3 1 * win0_2.size 1 + win0_2.xsize (grid0.coords t0_3) 1
        rw [show win0_2.index t0_3 1 * win0_2.size 1 = 0 from by decide +kernel, show win0_2.xsize (grid0.coords t0_3) 1 = 1 from by decide +kernel]; omega⟩

/-! ### The host line after the region, and the run -/

/-- The scalar the program returns: the total, the 1 x 1 array read as a scalar. -/
abbrev answer (c : Dev nD) : Buf (Elt Ideal) ((c : Thread nD τ).loc main_v1) := fun _ => total m c

/-- The result buffer is not one of the region's arrays. -/
theorem mem_rest : main_v1 ∈ Pipeline.restRefs sig (cfgs 0).spec :=
  Pipeline.mem_restRefs_of main_v1 rfl (fun w => by fin_cases w <;> decide)

/-- After the region the reshape reads the output array, which holds the total in its one entry. -/
theorem tail_eq (c : Dev nD) (hr : BlocksReal m c) :
    Pipeline.afterTail₀ cfgs (dats m) 0 (V0 m) [hostOps1] c main_v1 = answer m c := by
  unfold Pipeline.afterTail₀
  show StableHlo.after hostOps1 _ (Proc.devRef .tc main_v1) = _
  after_results
  funext i
  have e : Pipeline.withArrays (cfgs 0).spec c (V0 m c) (fun w => (dats m 0 c).arrAt w (cfgs 0).N) (Proc.devRef .tc main_v0)
      = result m c := (Pipeline.withArrays_arr spec0 launch0.win.arr_inj c _ _ 2).trans (final m c hr)
  rw [e]
  rfl

/-- The run of the idealized kernel: every weakly fair execution ends with the result at the total and the two argument
    arrays as they were. -/
theorem run (hr : ∀ c, BlocksReal m c) :
    θ_run defs (onTc (τ := τ) (main (F := Ideal))) ⟨m, fun _ => 0, ρ⟩ fun r => ∀ c : Dev nD,
      r.2.mem ((c.tc : Thread nD τ).loc main_v1) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v1 mem_rest).trans (tail_eq m c (hr c)),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Chamfer

end
-- ==== Proof.LibHostMin3.lean ====
/-
  At the ideal values the host's one-operand reduce with a minimum body over ONE axis of a rank-3 array [a, b, c], from an
  initial value that is +infinity, is a finite infimum: over the last axis, read at (p, q), the infimum over k of the
  entries (p, q, k); over the middle axis, read at (p, r), the infimum over k of the entries (p, k, r). Any extents.
-/
import Idealize.ShloMosaic.Lib.ValueIdx
import Idealize.ShloMosaic.PureOps.Ideal.Laws

noncomputable section

namespace Cert.LibHostMin3

open Idealize.ShloMosaic Idealize.ShloMosaic.ValueIdx

/-- A host minimum reduce over the LAST axis of an [a, b, c] array at Ideal, from +infinity, at (p, q). -/
theorem hostReduce_min_lastAxis {a b c : ℕ} {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (htop : init (Shape.Idx.first hu) = (⊤ : EReal)) (p : Fin a) (q : Fin b) :
    Host.reduce FloatOps.minimumf x init h' hu (ix2 p q) = (Finset.univ.inf fun k : Fin c => x (ix3 p q k) : EReal) := by
  rw [Host.reduce_eq_fold_single FloatOps.minimumf x init h' h hu]
  show (Finset.univ : Finset (Fin c)).fold min (init (Shape.Idx.first hu)) (fun k => x (h.lift (ix2 p q) k)) = _
  rw [htop]
  refine Eq.trans (show (Finset.univ : Finset (Fin c)).fold min (⊤ : EReal) _ = Finset.univ.inf _ from rfl)
    (Finset.inf_congr rfl fun k _ => congrArg x ?_)
  funext ax; apply Fin.ext
  match ax with
  | ⟨0, _⟩ => rfl
  | ⟨1, _⟩ => rfl
  | ⟨2, _⟩ => rfl

/-- A host minimum reduce over the MIDDLE axis of an [a, b, c] array at Ideal, from +infinity, at (p, r). -/
theorem hostReduce_min_midAxis {a b c : ℕ} {u : Shape} (x : FVec Ideal ⟨3, ![a, b, c]⟩ .f32) (init : FVec Ideal u .f32)
    (h' : (⟨3, ![a, b, c]⟩ : Shape).ReducesTo [1] ⟨2, ![a, c]⟩) (h : (⟨3, ![a, b, c]⟩ : Shape).Reduces [1] ⟨2, ![a, c]⟩)
    (hu : 0 < u.numel) (htop : init (Shape.Idx.first hu) = (⊤ : EReal)) (p : Fin a) (r : Fin c) :
    Host.reduce FloatOps.minimumf x init h' hu (ix2 p r) = (Finset.univ.inf fun k : Fin b => x (ix3 p k r) : EReal) := by
  rw [Host.reduce_eq_fold_single FloatOps.minimumf x init h' h hu]
  show (Finset.univ : Finset (Fin b)).fold min (init (Shape.Idx.first hu)) (fun k => x (h.lift (ix2 p r) k)) = _
  rw [htop]
  refine Eq.trans (show (Finset.univ : Finset (Fin b)).fold min (⊤ : EReal) _ = Finset.univ.inf _ from rfl)
    (Finset.inf_congr rfl fun k _ => congrArg x ?_)
  funext ax; apply Fin.ext
  match ax with
  | ⟨0, _⟩ => rfl
  | ⟨1, _⟩ => rfl
  | ⟨2, _⟩ => rfl

end Cert.LibHostMin3

end
-- ==== Proof.RefRead.lean ====
/-
  The reference, read one operation at a time. For batch b it forms, for every pair (n, m), the clamped squared distance
  max (|p_n|^2 + |t_m|^2 - 2 <p_n, t_m>) 0 of point n of the first array's batch and point m of the second's; takes the
  minimum over m for every n and over n for every m; adds each family up over all batches and points; divides each sum by
  the number of points 16384, adds the two quotients and halves.
-/
import proofs.«174885_g21801253994783_cont_8to1_138_22_alg».proof.Defs
import proofs.«174885_g21801253994783_cont_8to1_138_22_alg».proof.Proof.Gen.ReferenceIdeal.Read
import proofs.«174885_g21801253994783_cont_8to1_138_22_alg».proof.Proof.KBlock
import proofs.«174885_g21801253994783_cont_8to1_138_22_alg».proof.Proof.LibHostMin3
import proofs.«174885_g21801253994783_cont_8to1_138_22_alg».proof.Proof.Consts
import Idealize.ShloMosaic.Lib.ValueIdx
import proofs.«174885_g21801253994783_cont_8to1_138_22_alg».proof.Proof.SpecLoss

noncomputable section

namespace Cert.ReferenceIdeal.Chamfer

open Idealize.ShloMosaic Idealize.ShloMosaic.ValueIdx Cert.ReferenceIdeal Cert.ReferenceIdeal.Read Finset
open Cert.KernelIdeal.Chamfer (dist sqd sqNorm coord blockLoss)
open Cert.Chamfer.Consts

/-- An argument array: 4 batches of 4096 points of 3 coordinates. -/
abbrev Arr := (⟨S4x4096x3, .f32⟩ : BufTy).Contents (Elt Ideal)

/-- Batch b of an argument array, as a block of 4096 points. -/
def blk (A : Arr) (b : Fin 4) : Vec Ideal Cert.KernelIdeal.S1x4096x3 .f32 := fun y => A (ix3 b (y 1) (y 2))

theorem coord_blk (A : Arr) (b : Fin 4) (n : Fin 4096) (d : Fin 3) : coord (blk A b) n d = A (ix3 b n d) := rfl

/-- The clamped squared distance the reference forms at (b, n, m). -/
theorem clamped_eq (A0 A1 : Arr) (b : Fin 4) (n m : Fin 4096) :
    val_main_v14 (F := Ideal) A0 A1 (ix3 b n m) = dist (blk A0 b) (blk A1 b) n m := by
  have e1 : ∀ k : Fin 3, idx_main_v1 (idx_main_v5 (idx_main_v7 (ix3 b n m))) k = ix3 b n k := fun k => funext fun a => Fin.ext (by match a with | ⟨0, _⟩ => rfl | ⟨1, _⟩ => rfl | ⟨2, _⟩ => rfl)
  have e3 : ∀ k : Fin 3, idx_main_v3 (idx_main_v6 (idx_main_v8 (ix3 b n m))) k = ix3 b m k := fun k => funext fun a => Fin.ext (by match a with | ⟨0, _⟩ => rfl | ⟨1, _⟩ => rfl | ⟨2, _⟩ => rfl)
  have el : ∀ k : Fin 3, lidx_main_v4 (ix3 b n m) k = ix3 b n k := fun k => funext fun a => Fin.ext (by match a with | ⟨0, _⟩ => rfl | ⟨1, _⟩ => rfl | ⟨2, _⟩ => rfl)
  have er : ∀ k : Fin 3, ridx_main_v4 (ix3 b n m) k = ix3 b m k := fun k => funext fun a => Fin.ext (by match a with | ⟨0, _⟩ => rfl | ⟨1, _⟩ => rfl | ⟨2, _⟩ => rfl)
  rw [val_main_v14_apply, val_main_v12_apply, val_main_v9_apply, val_main_v7_apply, val_main_v5_apply, val_main_v1_apply,
    val_main_v8_apply, val_main_v6_apply, val_main_v3_apply, val_main_v11_apply, val_main_v10_apply, val_main_cst_1_apply,
    val_main_v4_apply, val_main_v13_apply, val_main_cst_2_apply, val_main_cst_apply, val_main_cst_0_apply]
  simp only [e1, e3, el, er, val_main_v0_apply, val_main_v2_apply, Ideal.mulf_def, Ideal.addf_def, Ideal.subf_def,
    Ideal.maximumf_def, Ideal.ofBits_def, ofBits_zero, ofBits_two, zero_add]
  rfl

/-- The nearest point of the second batch, for point n of the first. -/
theorem nearest_second (A0 A1 : Arr) (b : Fin 4) (n : Fin 4096) :
    val_main_v15 (F := Ideal) A0 A1 (ix2 b n) = univ.inf fun m => dist (blk A0 b) (blk A1 b) n m := by
  unfold val_main_v15
  refine (Cert.LibHostMin3.hostReduce_min_lastAxis (a := 4) (b := 4096) (c := 4096) _ _ _ (by decide) _ ofBits_top b n).trans ?_
  exact inf_congr rfl fun m _ => clamped_eq A0 A1 b n m

/-- The nearest point of the first batch, for point m of the second. -/
theorem nearest_first (A0 A1 : Arr) (b : Fin 4) (m : Fin 4096) :
    val_main_v16 (F := Ideal) A0 A1 (ix2 b m) = univ.inf fun n => dist (blk A0 b) (blk A1 b) n m := by
  unfold val_main_v16
  refine (Cert.LibHostMin3.hostReduce_min_midAxis (a := 4) (b := 4096) (c := 4096) _ _ _ (by decide) _ ofBits_top b m).trans ?_
  exact inf_congr rfl fun n _ => clamped_eq A0 A1 b n m

/-! ### The returned scalar -/

/-- The sum over the points of a batch's first cloud of the nearest clamped distance. -/
def sumNearestSecond (A0 A1 : Arr) (b : Fin 4) : EReal := ∑ n, univ.inf fun m => dist (blk A0 b) (blk A1 b) n m
/-- The sum over the points of a batch's second cloud of the nearest clamped distance. -/
def sumNearestFirst (A0 A1 : Arr) (b : Fin 4) : EReal := ∑ m, univ.inf fun n => dist (blk A0 b) (blk A1 b) n m

theorem dist_nonneg (X0 X1 : Vec Ideal Cert.KernelIdeal.S1x4096x3 .f32) (n m : Fin 4096) : 0 ≤ dist X0 X1 n m := le_max_right _ _

theorem sumNearestSecond_nonneg (A0 A1 : Arr) (b : Fin 4) : 0 ≤ sumNearestSecond A0 A1 b :=
  sum_nonneg fun n _ => Finset.le_inf fun m _ => dist_nonneg _ _ n m
theorem sumNearestFirst_nonneg (A0 A1 : Arr) (b : Fin 4) : 0 ≤ sumNearestFirst A0 A1 b :=
  sum_nonneg fun m _ => Finset.le_inf fun n _ => dist_nonneg _ _ n m

/-- What the reference returns: each directional sum over all batches divided by 16384, the two added and halved. -/
theorem ref_value (A0 A1 : Arr) (i : S_.Idx) :
    val_main_v22 (F := Ideal) A0 A1 i
      = ((∑ b, sumNearestSecond A0 A1 b) * ((1 / 16384 : ℝ) : EReal) + (∑ b, sumNearestFirst A0 A1 b) * ((1 / 16384 : ℝ) : EReal))
          * ((1 / 2 : ℝ) : EReal) := by
  rw [val_main_v22_apply, val_main_v21_apply, val_main_v18_apply, val_main_v20_apply, val_main_v17_apply, val_main_v19_apply,
    val_main_cst_9_apply, val_main_cst_6_apply, val_main_cst_8_apply, val_main_cst_5_apply, val_main_cst_7_apply]
  simp only [Ideal.hostDivf_def, Ideal.addf_def, Ideal.ofBits_def, ofBits_two, ofBits_count, ofBits_zero, zero_add,
    Ideal.div_coe (by norm_num : (16384 : ℝ) ≠ 0), Ideal.div_coe (by norm_num : (2 : ℝ) ≠ 0), sum_idx2, nearest_second, nearest_first]
  rfl

/-- The same number as the kernel arranges it: the sum over the batches of each batch's loss. -/
theorem ref_value_batches (A0 A1 : Arr) (i : S_.Idx) :
    val_main_v22 (F := Ideal) A0 A1 i = ∑ b : Fin 4, blockLoss (blk A0 b) (blk A1 b) := by
  rw [ref_value, Cert.Chamfer.scale_law _ _ (sum_nonneg fun b _ => sumNearestSecond_nonneg A0 A1 b)
    (sum_nonneg fun b _ => sumNearestFirst_nonneg A0 A1 b),
    Cert.Chamfer.sum_mul_of_nonneg _ _ (fun b _ => sumNearestSecond_nonneg A0 A1 b),
    Cert.Chamfer.sum_mul_of_nonneg _ _ (fun b _ => sumNearestFirst_nonneg A0 A1 b), ← sum_add_distrib]
  rfl

end Cert.ReferenceIdeal.Chamfer

end
-- ==== Proof.Join.lean ====
/-
  The block a window stages at grid point t is batch t of its argument array: the first window's of the first argument, the
  second's of the second. So under the precondition every staged block holds real numbers, and the total the kernel
  accumulates over its four grid points is the sum over the four batches of each batch's loss -- the same number the
  reference returns.
-/
import proofs.«174885_g21801253994783_cont_8to1_138_22_alg».proof.Proof.KRun
import proofs.«174885_g21801253994783_cont_8to1_138_22_alg».proof.Proof.RefRead

set_option maxRecDepth 16384

noncomputable section

namespace Cert.KernelIdeal.Chamfer

open Idealize.ShloMosaic Idealize.ShloMosaic.TcCoe Idealize.ShloMosaic.ValueIdx
open Idealize.SL Idealize.SL.Sem
open Cert.KernelIdeal Cert.KernelIdeal.Gen
open Cert.ReferenceIdeal.Chamfer (blk)

variable (m : (ℓ : Loc nD τ sig) → Buf (Elt Ideal) ℓ)

/-- Grid point t as a batch number. -/
def batchOf (t : Fin cfg0.N) : Fin 4 := Fin.cast N_0 t

/-- The index maps: window 0 and window 1 both stage batch t whole. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

theorem iblk0_eq (c : Dev nD) (t : Fin cfg0.N) :
    (iblk m c 0 t : Vec Ideal S1x4096x3 .f32) = blk (m ((c.tc : Thread nD τ).loc main_arg0)) (batchOf t) := by
  funext y
  show V m c main_arg0 (((cfg0.win 0).blk t).view.emb y) = m ((c.tc : Thread nD τ).loc main_arg0) (ix3 (batchOf t) (y 1) (y 2))
  refine congrArg (m ((c.tc : Thread nD τ).loc main_arg0)) (funext fun a => Fin.ext ?_)
  obtain ⟨i0, i1, i2⟩ := index0 t
  have hx : ((cfg0.win 0).xblock (cfg0.grid.coords t)).size 0 = 1 :=
    (by decide +kernel : ∀ t : Fin grid0.N, ((cfg0.win 0).xblock (cfg0.grid.coords t)).size 0 = 1) t
  have hy : (y 0).val = 0 := by have := (y 0).isLt; omega
  match a with
  | ⟨0, _⟩ => show win0_0.index t 0 * 1 + 1 * (y 0).val = t.val; rw [i0, hy]; omega
  | ⟨1, _⟩ => show win0_0.index t 1 * 4096 + 1 * (y 1).val = (y 1).val; rw [i1]; omega
  | ⟨2, _⟩ => show win0_0.index t 2 * 3 + 1 * (y 2).val = (y 2).val; rw [i2]; omega

theorem iblk1_eq (c : Dev nD) (t : Fin cfg0.N) :
    (iblk m c 1 t : Vec Ideal S1x4096x3 .f32) = blk (m ((c.tc : Thread nD τ).loc main_arg1)) (batchOf t) := by
  funext y
  show V m c main_arg1 (((cfg0.win 1).blk t).view.emb y) = m ((c.tc : Thread nD τ).loc main_arg1) (ix3 (batchOf t) (y 1) (y 2))
  refine congrArg (m ((c.tc : Thread nD τ).loc main_arg1)) (funext fun a => Fin.ext ?_)
  obtain ⟨i0, i1, i2⟩ := index1 t
  have hx : ((cfg0.win 1).xblock (cfg0.grid.coords t)).size 0 = 1 :=
    (by decide +kernel : ∀ t : Fin grid0.N, ((cfg0.win 1).xblock (cfg0.grid.coords t)).size 0 = 1) t
  have hy : (y 0).val = 0 := by have := (y 0).isLt; omega
  match a with
  | ⟨0, _⟩ => show win0_1.index t 0 * 1 + 1 * (y 0).val = t.val; rw [i0, hy]; omega
  | ⟨1, _⟩ => show win0_1.index t 1 * 4096 + 1 * (y 1).val = (y 1).val; rw [i1]; omega
  | ⟨2, _⟩ => show win0_1.index t 2 * 3 + 1 * (y 2).val = (y 2).val; rw [i2]; omega

/-- Real argument arrays give real blocks. -/
theorem blocksReal_of (c : Dev nD)
    (h0 : ∀ i, ∃ r : ℝ, m ((c.tc : Thread nD τ).loc main_arg0) i = (r : EReal))
    (h1 : ∀ i, ∃ r : ℝ, m ((c.tc : Thread nD τ).loc main_arg1) i = (r : EReal)) : BlocksReal m c := fun t =>
  ⟨fun y => by rw [iblk0_eq]; exact h0 _, fun y => by rw [iblk1_eq]; exact h1 _⟩

/-- The kernel's total is the sum over the four batches. -/
theorem total_eq (c : Dev nD) :
    total m c = ∑ b : Fin 4, blockLoss (blk (m ((c.tc : Thread nD τ).loc main_arg0)) b) (blk (m ((c.tc : Thread nD τ).loc main_arg1)) b) := by
  unfold total lossAt
  refine Fintype.sum_equiv (finCongr N_0) _ _ fun t => ?_
  rw [iblk0_eq, iblk1_eq]
  rfl

end Cert.KernelIdeal.Chamfer

end
-- ==== Proof.Finite.lean ====
/-
  The precondition says of each argument array that |x| < +infinity at every entry. On the extended reals that leaves
  exactly the real numbers: an entry that is +infinity or -infinity has absolute value +infinity.
-/
import proofs.«174885_g21801253994783_cont_8to1_138_22_alg».proof.Pre_finite_inputs
import proofs.«174885_g21801253994783_cont_8to1_138_22_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Chamfer.Finite

open Idealize.ShloMosaic Cert.Pre_finite_inputs

instance : Subsingleton S_.Idx := ⟨fun a b => funext fun d => d.elim0⟩

/-- An extended real whose absolute value is below +infinity is a real number. -/
theorem real_of_abs_lt (x : EReal) (h : Ideal.cmp .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  have hb : ∀ b : Bool, BitVec.ofBool b = 1#1 → b = true := by decide
  change BitVec.ofBool (decide (max x (-x) < ⊤)) = 1#1 at h
  have h' : max x (-x) < ⊤ := of_decide_eq_true (hb _ h)
  induction x using EReal.rec with
  | bot => simp at h'
  | coe r => exact ⟨r, rfl⟩
  | top => simp at h'

/-- Under the precondition every entry of both argument arrays is a real number. -/
theorem reals_of_pre (a0 a1 : FVec Ideal S4x4096x3 .f32) (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h3, h7⟩ := IntOp.andi_eq_one.mp h0
  exact ⟨fun i => real_of_abs_lt _ (Host.reduce_andi_all _ _ _ _ _ h3 i),
         fun i => real_of_abs_lt _ (Host.reduce_andi_all _ _ _ _ _ h7 i)⟩

end Cert.Chamfer.Finite

end
-- ==== Proof.lean ====
/-
  The chamfer loss of two clouds, 4 batches of 4096 points of R^3 each. With
      d(n, m) = max (|p_n|^2 + |t_m|^2 - 2 <p_n, t_m>) 0
  the clamped squared distance between point n of the first cloud and point m of the second, a batch's loss is
      (sum over n of min over m of d(n, m)) / 32768 + (sum over m of min over n of d(n, m)) / 32768,
  and the result is the sum of the four batches' losses.

  The reference forms every d(n, m), takes both families of minima, adds each up over all batches, divides each sum by the
  16384 points, adds and halves. The kernel handles one batch per grid point and adds its loss onto a single accumulated
  entry: it obtains |p|^2 + |t|^2 - 2 <p, t> as ONE eight-term product per pair (the norms travel inside the operands,
  each with a correction term that is the norm minus itself), works through the 4096 rows in 32 chunks of 128, clamps the
  row minima after taking them, and keeps 8 partial column minima per column that it clamps and reduces at the end.

  The two agree on exact values because: the correction terms are zero and the product expands to the squared distance when
  the coordinates are real numbers -- the one use of the inputs' finiteness (Proof/SpecPoint.lean, Proof/KEntry.lean);
  clamping at zero passes through a minimum, and the chunks and groups enumerate every row once (Proof/SpecLoss.lean,
  Proof/KBlock.lean); the entry carried across the grid points is a running total (Proof/KRun.lean); and for sums of
  nonnegative terms, weighting by 1/32768 is dividing by 16384, adding and halving (Proof/RefRead.lean). Narrowing a value to
  bf16 and widening it back is the identity on exact values: the two ledger entries.
-/
import proofs.«174885_g21801253994783_cont_8to1_138_22_alg».proof.Defs
import proofs.«174885_g21801253994783_cont_8to1_138_22_alg».proof.Proof.Gen.Kernel
import proofs.«174885_g21801253994783_cont_8to1_138_22_alg».proof.Proof.Gen.Kernel.Skeleton
import proofs.«174885_g21801253994783_cont_8to1_138_22_alg».proof.Proof.Gen.Kernel.Launch
import proofs.«174885_g21801253994783_cont_8to1_138_22_alg».proof.Proof.Gen.Kernel.Points
import proofs.«174885_g21801253994783_cont_8to1_138_22_alg».proof.Proof.Gen.Kernel.Frame
import proofs.«174885_g21801253994783_cont_8to1_138_22_alg».proof.Proof.Gen.KernelIdeal
import proofs.«174885_g21801253994783_cont_8to1_138_22_alg».proof.Proof.Gen.KernelIdeal.Skeleton
import proofs.«174885_g21801253994783_cont_8to1_138_22_alg».proof.Proof.Gen.KernelIdeal.Launch
import proofs.«174885_g21801253994783_cont_8to1_138_22_alg».proof.Proof.Gen.KernelIdeal.Points
import proofs.«174885_g21801253994783_cont_8to1_138_22_alg».proof.Proof.Gen.KernelIdeal.Frame
import proofs.«174885_g21801253994783_cont_8to1_138_22_alg».proof.Proof.Gen.ReferenceIdeal
import proofs.«174885_g21801253994783_cont_8to1_138_22_alg».proof.Proof.Gen.ReferenceIdeal.Run
import proofs.«174885_g21801253994783_cont_8to1_138_22_alg».proof.Proof.Gen.ReferenceIdeal.Read
import proofs.«174885_g21801253994783_cont_8to1_138_22_alg».proof.Proof.Gen.Pre_finite_inputs
import proofs.«174885_g21801253994783_cont_8to1_138_22_alg».proof.Proof.Join
import proofs.«174885_g21801253994783_cont_8to1_138_22_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both squared-norm vectors are narrowed to bf16 and widened back; on exact values that changes nothing. -/
theorem preserves : Cert.preserves_Kernel_KernelIdeal :=
  ⟨IdealRules.truncf_extf.statement Cert.KernelIdeal.S4096x1 .f32 .bf16,
   IdealRules.truncf_extf.statement Cert.KernelIdeal.S1x4096 .f32 .bf16⟩

/-- On exact values, from finite inputs, the kernel and the reference return the same number: the sum over the four batches
    of the batch's loss. -/
theorem algebraic : Cert.algebraic_KernelIdeal_ReferenceIdeal := by
  intro m ρ m' ρ' hpre hagree
  have hreal : ∀ c, Cert.KernelIdeal.Chamfer.BlocksReal m c := fun c =>
    Cert.KernelIdeal.Chamfer.blocksReal_of m c (Cert.Chamfer.Finite.reals_of_pre _ _ (hpre c)).1
      (Cert.Chamfer.Finite.reals_of_pre _ _ (hpre c)).2
  refine ⟨fun c => Cert.KernelIdeal.Chamfer.answer m c, Cert.KernelIdeal.Chamfer.run m ρ hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq]
  funext i
  rw [Cert.ReferenceIdeal.Chamfer.ref_value_batches, (hagree c).1, (hagree c).2]
  exact (Cert.KernelIdeal.Chamfer.total_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
